-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x12x24 : Shape := ⟨4, ![32, 512, 12, 24]⟩
abbrev S32x512x12x16 : Shape := ⟨4, ![32, 512, 12, 16]⟩
abbrev S32x512x12x16x24 : Shape := ⟨5, ![32, 512, 12, 16, 24]⟩
abbrev S24 : Shape := ⟨1, ![24]⟩
abbrev S12x16 : Shape := ⟨2, ![12, 16]⟩
abbrev S_ : Shape := ⟨0, ![]⟩

class Facts : Prop where
  bcast_S_S32x512x12x24 : S_.BroadcastsInDim S32x512x12x24 (![] : Fin 0 → Fin S32x512x12x24.rank)
  reducesTo_S32x512x12x24_S_d0_1_2_3 : S32x512x12x24.ReducesTo [0, 1, 2, 3] S_
  h_S_ : 0 < S_.numel
  bcast_S_S32x512x12x16 : S_.BroadcastsInDim S32x512x12x16 (![] : Fin 0 → Fin S32x512x12x16.rank)
  reducesTo_S32x512x12x16_S_d0_1_2_3 : S32x512x12x16.ReducesTo [0, 1, 2, 3] S_
  bcast_S_S32x512x12x16x24 : S_.BroadcastsInDim S32x512x12x16x24 (![] : Fin 0 → Fin S32x512x12x16x24.rank)
  reducesTo_S32x512x12x16x24_S_d0_1_2_3_4 : S32x512x12x16x24.ReducesTo [0, 1, 2, 3, 4] S_
  bcast_S_S24 : S_.BroadcastsInDim S24 (![] : Fin 0 → Fin S24.rank)
  reducesTo_S24_S_d0 : S24.ReducesTo [0] S_
  bcast_S_S12x16 : S_.BroadcastsInDim S12x16 (![] : Fin 0 → Fin S12x16.rank)
  reducesTo_S12x16_S_d0_1 : S12x16.ReducesTo [0, 1] S_

variable [Facts]

def fn_part2 {F : FTy → Type} [FloatOps F] (main_arg7 : FVec F S12x16 .f32) (main_arg8 : FVec F S24 .f32) (main_v33 : IVec S_ 1) : IVec S_ 1 :=
  let main_v34 : FVec F S12x16 .f32 := Host.absf main_arg7
  let main_cst_12 : FVec F S_ .f32 := constant S_ .f32 0x7F800000#32
  let main_v35 : FVec F S12x16 .f32 := broadcastInDim S12x16 ![] bcast_S_S12x16 main_cst_12
  let main_v36 : IVec S12x16 1 := cmpf .olt main_v34 main_v35
  let main_c_13 : IVec S_ 1 := constantI S_ 1 1#1
  let main_v37 : IVec S_ 1 := (fun x v => Host.reduce IntOp.andi x v reducesTo_S12x16_S_d0_1 h_S_) main_v36 main_c_13
  let main_v38 : IVec S_ 1 := andi main_v33 main_v37
  let main_v39 : FVec F S24 .f32 := Host.absf main_arg8
  let main_cst_14 : FVec F S_ .f32 := constant S_ .f32 0x7F800000#32
  let main_v40 : FVec F S24 .f32 := broadcastInDim S24 ![] bcast_S_S24 main_cst_14
  let main_v41 : IVec S24 1 := cmpf .olt main_v39 main_v40
  let main_c_15 : IVec S_ 1 := constantI S_ 1 1#1
  let main_v42 : IVec S_ 1 := (fun x v => Host.reduce IntOp.andi x v reducesTo_S24_S_d0 h_S_) main_v41 main_c_15
  let main_v43 : IVec S_ 1 := andi main_v38 main_v42
  main_v43

def fn_part1 {F : FTy → Type} [FloatOps F] (main_arg4 : FVec F S12x16 .f32) (main_arg5 : FVec F S24 .f32) (main_arg6 : FVec F S24 .f32) (main_arg7 : FVec F S12x16 .f32) (main_arg8 : FVec F S24 .f32) (main_v13 : IVec S_ 1) (main_v16 : IVec S24 1) : IVec S_ 1 :=
  let main_c_5 : IVec S_ 1 := constantI S_ 1 1#1
  let main_v17 : IVec S_ 1 := (fun x v => Host.reduce IntOp.andi x v reducesTo_S24_S_d0 h_S_) main_v16 main_c_5
  let main_v18 : IVec S_ 1 := andi main_v13 main_v17
  let main_v19 : FVec F S12x16 .f32 := Host.absf main_arg4
  let main_cst_6 : FVec F S_ .f32 := constant S_ .f32 0x7F800000#32
  let main_v20 : FVec F S12x16 .f32 := broadcastInDim S12x16 ![] bcast_S_S12x16 main_cst_6
  let main_v21 : IVec S12x16 1 := cmpf .olt main_v19 main_v20
  let main_c_7 : IVec S_ 1 := constantI S_ 1 1#1
  let main_v22 : IVec S_ 1 := (fun x v => Host.reduce IntOp.andi x v reducesTo_S12x16_S_d0_1 h_S_) main_v21 main_c_7
  let main_v23 : IVec S_ 1 := andi main_v18 main_v22
  let main_v24 : FVec F S24 .f32 := Host.absf main_arg5
  let main_cst_8 : FVec F S_ .f32 := constant S_ .f32 0x7F800000#32
  let main_v25 : FVec F S24 .f32 := broadcastInDim S24 ![] bcast_S_S24 main_cst_8
  let main_v26 : IVec S24 1 := cmpf .olt main_v24 main_v25
  let main_c_9 : IVec S_ 1 := constantI S_ 1 1#1
  let main_v27 : IVec S_ 1 := (fun x v => Host.reduce IntOp.andi x v reducesTo_S24_S_d0 h_S_) main_v26 main_c_9
  let main_v28 : IVec S_ 1 := andi main_v23 main_v27
  let main_v29 : FVec F S24 .f32 := Host.absf main_arg6
  let main_cst_10 : FVec F S_ .f32 := constant S_ .f32 0x7F800000#32
  let main_v30 : FVec F S24 .f32 := broadcastInDim S24 ![] bcast_S_S24 main_cst_10
  let main_v31 : IVec S24 1 := cmpf .olt main_v29 main_v30
  let main_c_11 : IVec S_ 1 := constantI S_ 1 1#1
  let main_v32 : IVec S_ 1 := (fun x v => Host.reduce IntOp.andi x v reducesTo_S24_S_d0 h_S_) main_v31 main_c_11
  let main_v33 : IVec S_ 1 := andi main_v28 main_v32
  fn_part2 (F := F) main_arg7 main_arg8 main_v33

def fn {F : FTy → Type} [FloatOps F] (main_arg0 : FVec F S32x512x12x24 .f32) (main_arg1 : FVec F S32x512x12x16 .f32) (main_arg2 : FVec F S32x512x12x16x24 .f32) (main_arg3 : FVec F S24 .f32) (main_arg4 : FVec F S12x16 .f32) (main_arg5 : FVec F S24 .f32) (main_arg6 : FVec F S24 .f32) (main_arg7 : FVec F S12x16 .f32) (main_arg8 : FVec F S24 .f32) : IVec S_ 1 :=
  let main_v0 : FVec F S32x512x12x24 .f32 := Host.absf main_arg0
  let main_cst : FVec F S_ .f32 := constant S_ .f32 0x7F800000#32
  let main_v1 : FVec F S32x512x12x24 .f32 := broadcastInDim S32x512x12x24 ![] bcast_S_S32x512x12x24 main_cst
  let main_v2 : IVec S32x512x12x24 1 := cmpf .olt main_v0 main_v1
  let main_c : IVec S_ 1 := constantI S_ 1 1#1
  let main_v3 : IVec S_ 1 := (fun x v => Host.reduce IntOp.andi x v reducesTo_S32x512x12x24_S_d0_1_2_3 h_S_) main_v2 main_c
  let main_v4 : FVec F S32x512x12x16 .f32 := Host.absf main_arg1
  let main_cst_0 : FVec F S_ .f32 := constant S_ .f32 0x7F800000#32
  let main_v5 : FVec F S32x512x12x16 .f32 := broadcastInDim S32x512x12x16 ![] bcast_S_S32x512x12x16 main_cst_0
  let main_v6 : IVec S32x512x12x16 1 := cmpf .olt main_v4 main_v5
  let main_c_1 : IVec S_ 1 := constantI S_ 1 1#1
  let main_v7 : IVec S_ 1 := (fun x v => Host.reduce IntOp.andi x v reducesTo_S32x512x12x16_S_d0_1_2_3 h_S_) main_v6 main_c_1
  let main_v8 : IVec S_ 1 := andi main_v3 main_v7
  let main_v9 : FVec F S32x512x12x16x24 .f32 := Host.absf main_arg2
  let main_cst_2 : FVec F S_ .f32 := constant S_ .f32 0x7F800000#32
  let main_v10 : FVec F S32x512x12x16x24 .f32 := broadcastInDim S32x512x12x16x24 ![] bcast_S_S32x512x12x16x24 main_cst_2
  let main_v11 : IVec S32x512x12x16x24 1 := cmpf .olt main_v9 main_v10
  let main_c_3 : IVec S_ 1 := constantI S_ 1 1#1
  let main_v12 : IVec S_ 1 := (fun x v => Host.reduce IntOp.andi x v reducesTo_S32x512x12x16x24_S_d0_1_2_3_4 h_S_) main_v11 main_c_3
  let main_v13 : IVec S_ 1 := andi main_v8 main_v12
  let main_v14 : FVec F S24 .f32 := Host.absf main_arg3
  let main_cst_4 : FVec F S_ .f32 := constant S_ .f32 0x7F800000#32
  let main_v15 : FVec F S24 .f32 := broadcastInDim S24 ![] bcast_S_S24 main_cst_4
  let main_v16 : IVec S24 1 := cmpf .olt main_v14 main_v15
  fn_part1 (F := F) main_arg4 main_arg5 main_arg6 main_arg7 main_arg8 main_v13 main_v16
-- ==== Kernel.lean ====
abbrev S32x512x12x24 : Shape := ⟨4, ![32, 512, 12, 24]⟩
abbrev S32x512x12x16 : Shape := ⟨4, ![32, 512, 12, 16]⟩
abbrev S32x512x12x16x24 : Shape := ⟨5, ![32, 512, 12, 16, 24]⟩
abbrev S24 : Shape := ⟨1, ![24]⟩
abbrev S12x16 : Shape := ⟨2, ![12, 16]⟩
abbrev S16384x288 : Shape := ⟨2, ![16384, 288]⟩
abbrev S16384x192 : Shape := ⟨2, ![16384, 192]⟩
abbrev S16384x4608 : Shape := ⟨2, ![16384, 4608]⟩
abbrev S1x24 : Shape := ⟨2, ![1, 24]⟩
abbrev S1x192 : Shape := ⟨2, ![1, 192]⟩
abbrev S2048x288 : Shape := ⟨2, ![2048, 288]⟩
abbrev S2048x12x24 : Shape := ⟨3, ![2048, 12, 24]⟩
abbrev S2048x12 : Shape := ⟨2, ![2048, 12]⟩
abbrev S2048x12x1 : Shape := ⟨3, ![2048, 12, 1]⟩
abbrev S1x1x24 : Shape := ⟨3, ![1, 1, 24]⟩
abbrev S2048 : Shape := ⟨1, ![2048]⟩
abbrev S2048x1 : Shape := ⟨2, ![2048, 1]⟩
abbrev S2048x192 : Shape := ⟨2, ![2048, 192]⟩
abbrev S2048x12x16 : Shape := ⟨3, ![2048, 12, 16]⟩
abbrev S512x4608 : Shape := ⟨2, ![512, 4608]⟩
abbrev S512x192x24 : Shape := ⟨3, ![512, 192, 24]⟩
abbrev S512x192 : Shape := ⟨2, ![512, 192]⟩
abbrev S512x192x1 : Shape := ⟨3, ![512, 192, 1]⟩
abbrev S512 : Shape := ⟨1, ![512]⟩
abbrev S512x1 : Shape := ⟨2, ![512, 1]⟩

abbrev nBuf : Space → Nat
  | .hbm => 24
  | .vmem => 18
  | .smem => 0
  | _ => 0

abbrev bufTy : (tb : Table) → Fin (tcTables nBuf tb) → BufTy
  | .hbm, ⟨0, _⟩ => ⟨S32x512x12x24, .f32⟩
  | .hbm, ⟨1, _⟩ => ⟨S32x512x12x16, .f32⟩
  | .hbm, ⟨2, _⟩ => ⟨S32x512x12x16x24, .f32⟩
  | .hbm, ⟨3, _⟩ => ⟨S24, .f32⟩
  | .hbm, ⟨4, _⟩ => ⟨S12x16, .f32⟩
  | .hbm, ⟨5, _⟩ => ⟨S24, .f32⟩
  | .hbm, ⟨6, _⟩ => ⟨S24, .f32⟩
  | .hbm, ⟨7, _⟩ => ⟨S12x16, .f32⟩
  | .hbm, ⟨8, _⟩ => ⟨S24, .f32⟩
  | .hbm, ⟨9, _⟩ => ⟨S16384x288, .f32⟩
  | .hbm, ⟨10, _⟩ => ⟨S16384x192, .f32⟩
  | .hbm, ⟨11, _⟩ => ⟨S16384x4608, .f32⟩
  | .hbm, ⟨12, _⟩ => ⟨S1x24, .f32⟩
  | .hbm, ⟨13, _⟩ => ⟨S1x24, .f32⟩
  | .hbm, ⟨14, _⟩ => ⟨S1x24, .f32⟩
  | .hbm, ⟨15, _⟩ => ⟨S1x24, .f32⟩
  | .hbm, ⟨16, _⟩ => ⟨S1x192, .f32⟩
  | .hbm, ⟨17, _⟩ => ⟨S1x192, .f32⟩
  | .hbm, ⟨18, _⟩ => ⟨S16384x288, .f32⟩
  | .hbm, ⟨19, _⟩ => ⟨S16384x192, .f32⟩
  | .hbm, ⟨20, _⟩ => ⟨S16384x4608, .f32⟩
  | .hbm, ⟨21, _⟩ => ⟨S32x512x12x24, .f32⟩
  | .hbm, ⟨22, _⟩ => ⟨S32x512x12x16, .f32⟩
  | .hbm, ⟨23, _⟩ => ⟨S32x512x12x16x24, .f32⟩
  | .local _ .vmem, ⟨0, _⟩ => ⟨S2048x288, .f32⟩
  | .local _ .vmem, ⟨1, _⟩ => ⟨S2048x288, .f32⟩
  | .local _ .vmem, ⟨2, _⟩ => ⟨S1x24, .f32⟩
  | .local _ .vmem, ⟨3, _⟩ => ⟨S1x24, .f32⟩
  | .local _ .vmem, ⟨4, _⟩ => ⟨S2048x288, .f32⟩
  | .local _ .vmem, ⟨5, _⟩ => ⟨S2048x288, .f32⟩
  | .local _ .vmem, ⟨6, _⟩ => ⟨S2048x192, .f32⟩
  | .local _ .vmem, ⟨7, _⟩ => ⟨S2048x192, .f32⟩
  | .local _ .vmem, ⟨8, _⟩ => ⟨S1x192, .f32⟩
  | .local _ .vmem, ⟨9, _⟩ => ⟨S1x192, .f32⟩
  | .local _ .vmem, ⟨10, _⟩ => ⟨S2048x192, .f32⟩
  | .local _ .vmem, ⟨11, _⟩ => ⟨S2048x192, .f32⟩
  | .local _ .vmem, ⟨12, _⟩ => ⟨S512x4608, .f32⟩
  | .local _ .vmem, ⟨13, _⟩ => ⟨S512x4608, .f32⟩
  | .local _ .vmem, ⟨14, _⟩ => ⟨S1x24, .f32⟩
  | .local _ .vmem, ⟨15, _⟩ => ⟨S1x24, .f32⟩
  | .local _ .vmem, ⟨16, _⟩ => ⟨S512x4608, .f32⟩
  | .local _ .vmem, ⟨17, _⟩ => ⟨S512x4608, .f32⟩
  | _, _ => ⟨S32x512x12x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4608 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x24 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x24 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x4608 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S32x512x12x24_S16384x288 : S32x512x12x24.ShapeCasts S16384x288
  shapeCasts_S32x512x12x16_S16384x192 : S32x512x12x16.ShapeCasts S16384x192
  shapeCasts_S32x512x12x16x24_S16384x4608 : S32x512x12x16x24.ShapeCasts S16384x4608
  shapeCasts_S24_S1x24 : S24.ShapeCasts S1x24
  shapeCasts_S12x16_S1x192 : S12x16.ShapeCasts S1x192
  inb_S2048x288_S2048x288_0_0 : ∀ a, (![0, 0] : Fin 2 → Nat) a + S2048x288.size a ≤ S2048x288.size a
  h_S2048x288 : 0 < S2048x288.numel
  shapeCasts_S2048x288_S2048x288 : S2048x288.ShapeCasts S2048x288
  inb_S1x24_S1x24_0_0 : ∀ a, (![0, 0] : Fin 2 → Nat) a + S1x24.size a ≤ S1x24.size a
  h_S1x24 : 0 < S1x24.numel
  shapeCasts_S1x24_S1x24 : S1x24.ShapeCasts S1x24
  shapeCasts_S2048x288_S2048x12x24 : S2048x288.ShapeCasts S2048x12x24
  reduces_S2048x12x24_S2048x12 : S2048x12x24.Reduces [2] S2048x12
  shapeCasts_S2048x12_S2048x12x1 : S2048x12.ShapeCasts S2048x12x1
  broadcasts_S2048x12x1_S2048x12x24 : S2048x12x1.Broadcasts S2048x12x24
  shapeCasts_S1x24_S1x1x24 : S1x24.ShapeCasts S1x1x24
  broadcasts_S1x1x24_S2048x12x24 : S1x1x24.Broadcasts S2048x12x24
  shapeCasts_S2048x12x24_S2048x288 : S2048x12x24.ShapeCasts S2048x288
  reduces_S2048x288_S2048 : S2048x288.Reduces [1] S2048
  shapeCasts_S2048_S2048x1 : S2048.ShapeCasts S2048x1
  broadcasts_S2048x1_S2048x288 : S2048x1.Broadcasts S2048x288
  inb_S2048x192_S2048x192_0_0 : ∀ a, (![0, 0] : Fin 2 → Nat) a + S2048x192.size a ≤ S2048x192.size a
  h_S2048x192 : 0 < S2048x192.numel
  shapeCasts_S2048x192_S2048x192 : S2048x192.ShapeCasts S2048x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  shapeCasts_S2048x192_S2048x12x16 : S2048x192.ShapeCasts S2048x12x16
  reduces_S2048x12x16_S2048x12 : S2048x12x16.Reduces [2] S2048x12
  broadcasts_S2048x12x1_S2048x12x16 : S2048x12x1.Broadcasts S2048x12x16
  shapeCasts_S2048x12x16_S2048x192 : S2048x12x16.ShapeCasts S2048x192
  reduces_S2048x192_S2048 : S2048x192.Reduces [1] S2048
  broadcasts_S2048x1_S2048x192 : S2048x1.Broadcasts S2048x192
  broadcasts_S1x192_S2048x192 : S1x192.Broadcasts S2048x192
  inb_S512x4608_S512x4608_0_0 : ∀ a, (![0, 0] : Fin 2 → Nat) a + S512x4608.size a ≤ S512x4608.size a
  h_S512x4608 : 0 < S512x4608.numel
  shapeCasts_S512x4608_S512x4608 : S512x4608.ShapeCasts S512x4608
  shapeCasts_S512x4608_S512x192x24 : S512x4608.ShapeCasts S512x192x24
  reduces_S512x192x24_S512x192 : S512x192x24.Reduces [2] S512x192
  shapeCasts_S512x192_S512x192x1 : S512x192.ShapeCasts S512x192x1
  broadcasts_S512x192x1_S512x192x24 : S512x192x1.Broadcasts S512x192x24
  broadcasts_S1x1x24_S512x192x24 : S1x1x24.Broadcasts S512x192x24
  shapeCasts_S512x192x24_S512x4608 : S512x192x24.ShapeCasts S512x4608
  reduces_S512x4608_S512 : S512x4608.Reduces [1] S512
  shapeCasts_S512_S512x1 : S512.ShapeCasts S512x1
  broadcasts_S512x1_S512x4608 : S512x1.Broadcasts S512x4608
  shapeCasts_S16384x288_S32x512x12x24 : S16384x288.ShapeCasts S32x512x12x24
  shapeCasts_S16384x192_S32x512x12x16 : S16384x192.ShapeCasts S32x512x12x16
  shapeCasts_S16384x4608_S32x512x12x16x24 : S16384x4608.ShapeCasts S32x512x12x16x24
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x288.size a ≤ S16384x288.size a
  hwx0_0 : ∀ i : grid0.Coords, EltTy.bits .f32 = 32 ∨ (Rect.block (s := S16384x288) S2048x288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x24.size a ≤ S1x24.size a
  hwx0_1 : ∀ i : grid0.Coords, EltTy.bits .f32 = 32 ∨ (Rect.block (s := S1x24) S1x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x24.size a ≤ S1x24.size a
  hwx0_2 : ∀ i : grid0.Coords, EltTy.bits .f32 = 32 ∨ (Rect.block (s := S1x24) S1x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x288.size a ≤ S16384x288.size a
  hwx0_3 : ∀ i : grid0.Coords, EltTy.bits .f32 = 32 ∨ (Rect.block (s := S16384x288) S2048x288.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x192.size a ≤ S16384x192.size a
  hwx1_0 : ∀ i : grid1.Coords, EltTy.bits .f32 = 32 ∨ (Rect.block (s := S16384x192) S2048x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x192.size a ≤ S1x192.size a
  hwx1_1 : ∀ i : grid1.Coords, EltTy.bits .f32 = 32 ∨ (Rect.block (s := S1x192) S1x192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x192.size a ≤ S1x192.size a
  hwx1_2 : ∀ i : grid1.Coords, EltTy.bits .f32 = 32 ∨ (Rect.block (s := S1x192) S1x192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x192.size a ≤ S16384x192.size a
  hwx1_3 : ∀ i : grid1.Coords, EltTy.bits .f32 = 32 ∨ (Rect.block (s := S16384x192) S2048x192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4608.size a ≤ S16384x4608.size a
  hwx2_0 : ∀ i : grid2.Coords, EltTy.bits .f32 = 32 ∨ (Rect.block (s := S16384x4608) S512x4608.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x24.size a ≤ S1x24.size a
  hwx2_1 : ∀ i : grid2.Coords, EltTy.bits .f32 = 32 ∨ (Rect.block (s := S1x24) S1x24.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x24.size a ≤ S1x24.size a
  hwx2_2 : ∀ i : grid2.Coords, EltTy.bits .f32 = 32 ∨ (Rect.block (s := S1x24) S1x24.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x4608.size a ≤ S16384x4608.size a
  hwx2_3 : ∀ i : grid2.Coords, EltTy.bits .f32 = 32 ∨ (Rect.block (s := S16384x4608) S512x4608.size (cc2_transform_3 i) (hinb2_3 i)).WholeWords (EltTy.packing .f32)

variable [Facts₀]

abbrev win0_0 : Pipeline.Window sig grid0 :=
  Pipeline.Window.ofSpec (Memref.whole main_v0) S2048x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x288.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2048x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2048x192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x4608.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x24.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x24.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S512x4608.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S32x512x12x24 : Shape := ⟨4, ![32, 512, 12, 24]⟩
abbrev S32x512x12x16 : Shape := ⟨4, ![32, 512, 12, 16]⟩
abbrev S32x512x12x16x24 : Shape := ⟨5, ![32, 512, 12, 16, 24]⟩
abbrev S24 : Shape := ⟨1, ![24]⟩
abbrev S12x16 : Shape := ⟨2, ![12, 16]⟩
abbrev S_ : Shape := ⟨0, ![]⟩
abbrev S32x512x12 : Shape := ⟨3, ![32, 512, 12]⟩
abbrev S32x512x12x1 : Shape := ⟨4, ![32, 512, 12, 1]⟩
abbrev S1x1x1x24 : Shape := ⟨4, ![1, 1, 1, 24]⟩
abbrev S32x512 : Shape := ⟨2, ![32, 512]⟩
abbrev S32x512x1x1 : Shape := ⟨4, ![32, 512, 1, 1]⟩
abbrev S1x1x12x16 : Shape := ⟨4, ![1, 1, 12, 16]⟩
abbrev S32x512x12x16x1 : Shape := ⟨5, ![32, 512, 12, 16, 1]⟩
abbrev S1x1x1x1x24 : Shape := ⟨5, ![1, 1, 1, 1, 24]⟩
abbrev S32x512x1x1x1 : Shape := ⟨5, ![32, 512, 1, 1, 1]⟩

abbrev nBuf : Space → Nat
  | .hbm => 144
  | .vmem => 0
  | .smem => 0
  | _ => 0

abbrev hbmTy0_0 (i : Nat) : BufTy := match i % 128 with
  | 0 => ⟨S32x512x12x24, .f32⟩
  | 1 => ⟨S32x512x12x16, .f32⟩
  | 2 => ⟨S32x512x12x16x24, .f32⟩
  | 3 => ⟨S24, .f32⟩
  | 4 => ⟨S12x16, .f32⟩
  | 5 => ⟨S24, .f32⟩
  | 6 => ⟨S24, .f32⟩
  | 7 => ⟨S12x16, .f32⟩
  | 8 => ⟨S24, .f32⟩
  | 9 => ⟨S32x512x12x24, .f32⟩
  | 10 => ⟨S_, .f32⟩
  | 11 => ⟨S32x512x12, .f32⟩
  | 12 => ⟨S32x512x12x1, .f32⟩
  | 13 => ⟨S_, .f32⟩
  | 14 => ⟨S32x512x12x1, .f32⟩
  | 15 => ⟨S32x512x12x1, .f32⟩
  | 16 => ⟨S_, .f32⟩
  | 17 => ⟨S32x512x12x1, .f32⟩
  | 18 => ⟨S32x512x12x1, .f32⟩
  | 19 => ⟨S32x512x12x1, .f32⟩
  | 20 => ⟨S32x512x12x24, .f32⟩
  | 21 => ⟨S32x512x12x24, .f32⟩
  | 22 => ⟨S1x1x1x24, .f32⟩
  | 23 => ⟨S32x512x12x24, .f32⟩
  | 24 => ⟨S32x512x12x24, .f32⟩
  | 25 => ⟨S32x512x12x24, .f32⟩
  | 26 => ⟨S_, .f32⟩
  | 27 => ⟨S32x512, .f32⟩
  | 28 => ⟨S32x512x1x1, .f32⟩
  | 29 => ⟨S_, .f32⟩
  | 30 => ⟨S32x512x1x1, .f32⟩
  | 31 => ⟨S32x512x1x1, .f32⟩
  | 32 => ⟨S_, .f32⟩
  | 33 => ⟨S32x512x1x1, .f32⟩
  | 34 => ⟨S32x512x1x1, .f32⟩
  | 35 => ⟨S32x512x1x1, .f32⟩
  | 36 => ⟨S32x512x12x24, .f32⟩
  | 37 => ⟨S32x512x12x24, .f32⟩
  | 38 => ⟨S32x512x12x24, .f32⟩
  | 39 => ⟨S_, .f32⟩
  | 40 => ⟨S32x512x12, .f32⟩
  | 41 => ⟨S32x512x12x1, .f32⟩
  | 42 => ⟨S_, .f32⟩
  | 43 => ⟨S32x512x12x1, .f32⟩
  | 44 => ⟨S32x512x12x1, .f32⟩
  | 45 => ⟨S_, .f32⟩
  | 46 => ⟨S32x512x12x1, .f32⟩
  | 47 => ⟨S32x512x12x1, .f32⟩
  | 48 => ⟨S32x512x12x1, .f32⟩
  | 49 => ⟨S32x512x12x24, .f32⟩
  | 50 => ⟨S32x512x12x24, .f32⟩
  | 51 => ⟨S1x1x1x24, .f32⟩
  | 52 => ⟨S32x512x12x24, .f32⟩
  | 53 => ⟨S32x512x12x24, .f32⟩
  | 54 => ⟨S32x512x12x16, .f32⟩
  | 55 => ⟨S_, .f32⟩
  | 56 => ⟨S32x512x12, .f32⟩
  | 57 => ⟨S32x512x12x1, .f32⟩
  | 58 => ⟨S_, .f32⟩
  | 59 => ⟨S32x512x12x1, .f32⟩
  | 60 => ⟨S32x512x12x1, .f32⟩
  | 61 => ⟨S_, .f32⟩
  | 62 => ⟨S32x512x12x1, .f32⟩
  | 63 => ⟨S32x512x12x1, .f32⟩
  | 64 => ⟨S32x512x12x1, .f32⟩
  | 65 => ⟨S32x512x12x16, .f32⟩
  | 66 => ⟨S32x512x12x16, .f32⟩
  | 67 => ⟨S32x512x12x16, .f32⟩
  | 68 => ⟨S_, .f32⟩
  | 69 => ⟨S32x512, .f32⟩
  | 70 => ⟨S32x512x1x1, .f32⟩
  | 71 => ⟨S_, .f32⟩
  | 72 => ⟨S32x512x1x1, .f32⟩
  | 73 => ⟨S32x512x1x1, .f32⟩
  | 74 => ⟨S_, .f32⟩
  | 75 => ⟨S32x512x1x1, .f32⟩
  | 76 => ⟨S32x512x1x1, .f32⟩
  | 77 => ⟨S32x512x1x1, .f32⟩
  | 78 => ⟨S32x512x12x16, .f32⟩
  | 79 => ⟨S32x512x12x16, .f32⟩
  | 80 => ⟨S1x1x12x16, .f32⟩
  | 81 => ⟨S32x512x12x16, .f32⟩
  | 82 => ⟨S32x512x12x16, .f32⟩
  | 83 => ⟨S32x512x12x16, .f32⟩
  | 84 => ⟨S_, .f32⟩
  | 85 => ⟨S32x512, .f32⟩
  | 86 => ⟨S32x512x1x1, .f32⟩
  | 87 => ⟨S_, .f32⟩
  | 88 => ⟨S32x512x1x1, .f32⟩
  | 89 => ⟨S32x512x1x1, .f32⟩
  | 90 => ⟨S_, .f32⟩
  | 91 => ⟨S32x512x1x1, .f32⟩
  | 92 => ⟨S32x512x1x1, .f32⟩
  | 93 => ⟨S32x512x1x1, .f32⟩
  | 94 => ⟨S32x512x12x16, .f32⟩
  | 95 => ⟨S32x512x12x16, .f32⟩
  | 96 => ⟨S1x1x12x16, .f32⟩
  | 97 => ⟨S32x512x12x16, .f32⟩
  | 98 => ⟨S32x512x12x16, .f32⟩
  | 99 => ⟨S32x512x12x16x24, .f32⟩
  | 100 => ⟨S_, .f32⟩
  | 101 => ⟨S32x512x12x16, .f32⟩
  | 102 => ⟨S32x512x12x16x1, .f32⟩
  | 103 => ⟨S_, .f32⟩
  | 104 => ⟨S32x512x12x16x1, .f32⟩
  | 105 => ⟨S32x512x12x16x1, .f32⟩
  | 106 => ⟨S_, .f32⟩
  | 107 => ⟨S32x512x12x16x1, .f32⟩
  | 108 => ⟨S32x512x12x16x1, .f32⟩
  | 109 => ⟨S32x512x12x16x1, .f32⟩
  | 110 => ⟨S32x512x12x16x24, .f32⟩
  | 111 => ⟨S32x512x12x16x24, .f32⟩
  | 112 => ⟨S1x1x1x1x24, .f32⟩
  | 113 => ⟨S32x512x12x16x24, .f32⟩
  | 114 => ⟨S32x512x12x16x24, .f32⟩
  | 115 => ⟨S32x512x12x16x24, .f32⟩
  | 116 => ⟨S_, .f32⟩
  | 117 => ⟨S32x512, .f32⟩
  | 118 => ⟨S32x512x1x1x1, .f32⟩
  | 119 => ⟨S_, .f32⟩
  | 120 => ⟨S32x512x1x1x1, .f32⟩
  | 121 => ⟨S32x512x1x1x1, .f32⟩
  | 122 => ⟨S_, .f32⟩
  | 123 => ⟨S32x512x1x1x1, .f32⟩
  | 124 => ⟨S32x512x1x1x1, .f32⟩
  | 125 => ⟨S32x512x1x1x1, .f32⟩
  | 126 => ⟨S32x512x12x16x24, .f32⟩
  | 127 => ⟨S32x512x12x16x24, .f32⟩
  | _ => ⟨S32x512x12x24, .f32⟩

abbrev hbmTy0_1 (i : Nat) : BufTy := match i % 128 with
  | 0 => ⟨S32x512x12x16x24, .f32⟩
  | 1 => ⟨S_, .f32⟩
  | 2 => ⟨S32x512x12x16, .f32⟩
  | 3 => ⟨S32x512x12x16x1, .f32⟩
  | 4 => ⟨S_, .f32⟩
  | 5 => ⟨S32x512x12x16x1, .f32⟩
  | 6 => ⟨S32x512x12x16x1, .f32⟩
  | 7 => ⟨S_, .f32⟩
  | 8 => ⟨S32x512x12x16x1, .f32⟩
  | 9 => ⟨S32x512x12x16x1, .f32⟩
  | 10 => ⟨S32x512x12x16x1, .f32⟩
  | 11 => ⟨S32x512x12x16x24, .f32⟩
  | 12 => ⟨S32x512x12x16x24, .f32⟩
  | 13 => ⟨S1x1x1x1x24, .f32⟩
  | 14 => ⟨S32x512x12x16x24, .f32⟩
  | 15 => ⟨S32x512x12x16x24, .f32⟩
  | _ => ⟨S32x512x12x24, .f32⟩

abbrev hbmTy (i : Nat) : BufTy := match i / 128 with
  | 0 => hbmTy0_0 i
  | 1 => hbmTy0_1 i
  | _ => ⟨S32x512x12x24, .f32⟩

abbrev bufTy : (tb : Table) → Fin (tcTables nBuf tb) → BufTy
  | .hbm, ⟨i, _⟩ => hbmTy i
  | _, _ => ⟨S32x512x12x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_cst_15 : Ref sig .tc := ⟨.hbm, 87, rfl⟩
abbrev main_v62 : Ref sig .tc := ⟨.hbm, 88, rfl⟩
abbrev main_v63 : Ref sig .tc := ⟨.hbm, 89, rfl⟩
abbrev main_cst_16 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_cst_18 : Ref sig .tc := ⟨.hbm, 103, rfl⟩
abbrev main_v75 : Ref sig .tc := ⟨.hbm, 104, rfl⟩
abbrev main_v76 : Ref sig .tc := ⟨.hbm, 105, rfl⟩
abbrev main_cst_19 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_20 : Ref sig .tc := ⟨.hbm, 116, rfl⟩
abbrev main_v86 : Ref sig .tc := ⟨.hbm, 117, rfl⟩
abbrev main_v87 : Ref sig .tc := ⟨.hbm, 118, rfl⟩
abbrev main_cst_21 : Ref sig .tc := ⟨.hbm, 119, rfl⟩
abbrev main_v88 : Ref sig .tc := ⟨.hbm, 120, rfl⟩
abbrev main_v89 : Ref sig .tc := ⟨.hbm, 121, rfl⟩
abbrev main_cst_22 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_23 : Ref sig .tc := ⟨.hbm, 129, rfl⟩
abbrev main_v96 : Ref sig .tc := ⟨.hbm, 130, rfl⟩
abbrev main_v97 : Ref sig .tc := ⟨.hbm, 131, rfl⟩
abbrev main_cst_24 : Ref sig .tc := ⟨.hbm, 132, rfl⟩
abbrev main_v98 : Ref sig .tc := ⟨.hbm, 133, rfl⟩
abbrev main_v99 : Ref sig .tc := ⟨.hbm, 134, rfl⟩
abbrev main_cst_25 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩

abbrev nD : Nat := 1
abbrev τ : Topo := Topo.v7x

variable {F : FTy → Type} [FloatOps F]

class Facts₀ : Prop where
  reducesTo_S32x512x12x24_S32x512x12_d3 : S32x512x12x24.ReducesTo [3] S32x512x12
  h_S_ : 0 < S_.numel
  bcast_S32x512x12_S32x512x12x1_0_1_2 : S32x512x12.BroadcastsInDim S32x512x12x1 (![0, 1, 2] : Fin 3 → Fin S32x512x12x1.rank)
  bcast_S_S32x512x12x1 : S_.BroadcastsInDim S32x512x12x1 (![] : Fin 0 → Fin S32x512x12x1.rank)
  bcast_S32x512x12x1_S32x512x12x24_0_1_2_3 : S32x512x12x1.BroadcastsInDim S32x512x12x24 (![0, 1, 2, 3] : Fin 4 → Fin S32x512x12x24.rank)
  bcast_S24_S1x1x1x24_3 : S24.BroadcastsInDim S1x1x1x24 (![3] : Fin 1 → Fin S1x1x1x24.rank)
  bcast_S1x1x1x24_S32x512x12x24_0_1_2_3 : S1x1x1x24.BroadcastsInDim S32x512x12x24 (![0, 1, 2, 3] : Fin 4 → Fin S32x512x12x24.rank)
  reducesTo_S32x512x12x24_S32x512_d2_3 : S32x512x12x24.ReducesTo [2, 3] S32x512
  bcast_S32x512_S32x512x1x1_0_1 : S32x512.BroadcastsInDim S32x512x1x1 (![0, 1] : Fin 2 → Fin S32x512x1x1.rank)
  bcast_S_S32x512x1x1 : S_.BroadcastsInDim S32x512x1x1 (![] : Fin 0 → Fin S32x512x1x1.rank)
  bcast_S32x512x1x1_S32x512x12x24_0_1_2_3 : S32x512x1x1.BroadcastsInDim S32x512x12x24 (![0, 1, 2, 3] : Fin 4 → Fin S32x512x12x24.rank)
  reducesTo_S32x512x12x16_S32x512x12_d3 : S32x512x12x16.ReducesTo [3] S32x512x12
  bcast_S32x512x12x1_S32x512x12x16_0_1_2_3 : S32x512x12x1.BroadcastsInDim S32x512x12x16 (![0, 1, 2, 3] : Fin 4 → Fin S32x512x12x16.rank)
  reducesTo_S32x512x12x16_S32x512_d2_3 : S32x512x12x16.ReducesTo [2, 3] S32x512
  bcast_S32x512x1x1_S32x512x12x16_0_1_2_3 : S32x512x1x1.BroadcastsInDim S32x512x12x16 (![0, 1, 2, 3] : Fin 4 → Fin S32x512x12x16.rank)
  bcast_S12x16_S1x1x12x16_2_3 : S12x16.BroadcastsInDim S1x1x12x16 (![2, 3] : Fin 2 → Fin S1x1x12x16.rank)
  bcast_S1x1x12x16_S32x512x12x16_0_1_2_3 : S1x1x12x16.BroadcastsInDim S32x512x12x16 (![0, 1, 2, 3] : Fin 4 → Fin S32x512x12x16.rank)
  reducesTo_S32x512x12x16x24_S32x512x12x16_d4 : S32x512x12x16x24.ReducesTo [4] S32x512x12x16
  bcast_S32x512x12x16_S32x512x12x16x1_0_1_2_3 : S32x512x12x16.BroadcastsInDim S32x512x12x16x1 (![0, 1, 2, 3] : Fin 4 → Fin S32x512x12x16x1.rank)
  bcast_S_S32x512x12x16x1 : S_.BroadcastsInDim S32x512x12x16x1 (![] : Fin 0 → Fin S32x512x12x16x1.rank)
  bcast_S32x512x12x16x1_S32x512x12x16x24_0_1_2_3_4 : S32x512x12x16x1.BroadcastsInDim S32x512x12x16x24 (![0, 1, 2, 3, 4] : Fin 5 → Fin S32x512x12x16x24.rank)
  bcast_S24_S1x1x1x1x24_4 : S24.BroadcastsInDim S1x1x1x1x24 (![4] : Fin 1 → Fin S1x1x1x1x24.rank)
  bcast_S1x1x1x1x24_S32x512x12x16x24_0_1_2_3_4 : S1x1x1x1x24.BroadcastsInDim S32x512x12x16x24 (![0, 1, 2, 3, 4] : Fin 5 → Fin S32x512x12x16x24.rank)
  reducesTo_S32x512x12x16x24_S32x512_d2_3_4 : S32x512x12x16x24.ReducesTo [2, 3, 4] S32x512
  bcast_S32x512_S32x512x1x1x1_0_1 : S32x512.BroadcastsInDim S32x512x1x1x1 (![0, 1] : Fin 2 → Fin S32x512x1x1x1.rank)
  bcast_S_S32x512x1x1x1 : S_.BroadcastsInDim S32x512x1x1x1 (![] : Fin 0 → Fin S32x512x1x1x1.rank)
  bcast_S32x512x1x1x1_S32x512x12x16x24_0_1_2_3_4 : S32x512x1x1x1.BroadcastsInDim S32x512x12x16x24 (![0, 1, 2, 3, 4] : Fin 5 → Fin S32x512x12x16x24.rank)

variable [Facts₀]

class Facts : Prop extends Facts₀ where

variable [Facts]
-- ==== Proof.KernelRun.lean ====
/-
  The kernel program's run with its three result buffers named.

  The program is five stretches: nine reshapes of the arguments, the three kernels, three reshapes of the kernels' result
  arrays. Its launch ends in a state whose every unscoped buffer holds the contents the stretches fold to from the launch
  memory; read at the argument buffers that state gives the frame, and read at the three result buffers it gives each
  result as the last fold's value there. Every weakly fair execution terminates in such a state.
-/
import proofs.«112269_j45191645889359_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with each result buffer at the value the
    last fold of the host stretches and the kernels' write-backs gives it, and the arguments as launched. -/
theorem run_folded : θ_run defs (onTc (τ := τ) (main (F := F))) ⟨m, fun _ => 0, ρ⟩ (fun r => ∀ c : Dev nD,
      r.2.mem ((c.tc : Thread nD τ).loc main_v12) = W5 m ρ c (Proc.devRef .tc main_v12)
      ∧ r.2.mem ((c.tc : Thread nD τ).loc main_v13) = W5 m ρ c (Proc.devRef .tc main_v13)
      ∧ r.2.mem ((c.tc : Thread nD τ).loc main_v14) = W5 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v12 (by decide)),
       h c _ (mem_uc main_v13 (by decide)),
       h c _ (mem_uc main_v14 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Run

end
-- ==== Proof.Spec.lean ====
/-
  The mathematics both programs compute, stated once over plain finite index types.

  Every branch of the program is a chain of three RMS normalisations of one ROW of the input (the entries that share
  the two leading coordinates). A row is viewed as `G` groups of `E` entries. A normalisation multiplies each entry by
  `rsqrt (ss / n + eps)`, where `ss` is the sum of the squares either of the entry's own group (`inner…`) or of the whole
  row (`outer…`), and then possibly by a weight that depends on the position inside the group (`inner`) or on the position
  inside the row (`outerW`). The quotient is the extended reals' exact quotient and `rsqrt` their exact reciprocal square
  root, so nothing here depends on how a sum is grouped or ordered.

  The float literals stay the binary words the two programs share; none of them is ever evaluated.
-/
import Idealize.ShloMosaic.PureOps.Ideal
import Idealize.ShloMosaic.Lib.ValueIdx

noncomputable section

namespace Cert.Norm

open Idealize.ShloMosaic Idealize.ShloMosaic.ValueIdx

/-- The normaliser of a set of entries whose squares sum to `ss`: `rsqrt (ss / n + eps)`. -/
def rs (n eps ss : EReal) : EReal := Ideal.rsqrt (Ideal.div ss n + eps)

variable {G E : ℕ}

/-- The sum of the squares of group `g` of a row. -/
def groupSq (r : Fin G → Fin E → EReal) (g : Fin G) : EReal := ∑ k : Fin E, r g k * r g k

/-- The sum of the squares of a whole row, group by group. -/
def rowSq (r : Fin G → Fin E → EReal) : EReal := ∑ g : Fin G, ∑ k : Fin E, r g k * r g k

/-- Normalise each group by its own mean square, then weigh by the position inside the group. -/
def inner (n eps : EReal) (r : Fin G → Fin E → EReal) (w : Fin E → EReal) : Fin G → Fin E → EReal :=
  fun g e => r g e * rs n eps (groupSq r g) * w e

/-- Normalise each group by its own mean square; no weight. -/
def innerNoW (n eps : EReal) (r : Fin G → Fin E → EReal) : Fin G → Fin E → EReal :=
  fun g e => r g e * rs n eps (groupSq r g)

/-- Normalise the whole row by its mean square; no weight. -/
def outerNoW (n eps : EReal) (r : Fin G → Fin E → EReal) : Fin G → Fin E → EReal :=
  fun g e => r g e * rs n eps (rowSq r)

/-- Normalise the whole row by its mean square, then weigh by the position inside the row. -/
def outerW (n eps : EReal) (r : Fin G → Fin E → EReal) (w : Fin G → Fin E → EReal) : Fin G → Fin E → EReal :=
  fun g e => r g e * rs n eps (rowSq r) * w g e

/-! ## The literals, as the words both programs print -/

/-- 24.0 -/
abbrev c24 : EReal := Ideal.ofBits .f32 0x41C00000#32
/-- 16.0 -/
abbrev c16 : EReal := Ideal.ofBits .f32 0x41800000#32
/-- 288.0 -/
abbrev c288 : EReal := Ideal.ofBits .f32 0x43900000#32
/-- 192.0 -/
abbrev c192 : EReal := Ideal.ofBits .f32 0x43400000#32
/-- 4608.0 -/
abbrev c4608 : EReal := Ideal.ofBits .f32 0x45900000#32
/-- 2⁻²³, the default epsilon -/
abbrev epsD : EReal := Ideal.ofBits .f32 0x34000000#32
/-- the f32 nearest 0.001 -/
abbrev eps3 : EReal := Ideal.ofBits .f32 0x3A83126F#32
/-- the f32 nearest 0.01 -/
abbrev eps2 : EReal := Ideal.ofBits .f32 0x3C23D70A#32

/-! ## The three chains, on one row -/

/-- The first branch on a row of 12 groups of 24: by group with weight `wa`, by row, by group with weight `wb`. -/
def xrow (r : Fin 12 → Fin 24 → EReal) (wa wb : Fin 24 → EReal) : Fin 12 → Fin 24 → EReal :=
  inner c24 epsD (outerNoW c288 epsD (inner c24 epsD r wa)) wb

/-- The second branch on a row of 12 groups of 16: by group, then twice by row with the full weights `wa`, `wb`. -/
def yrow (r : Fin 12 → Fin 16 → EReal) (wa wb : Fin 12 → Fin 16 → EReal) : Fin 12 → Fin 16 → EReal :=
  outerW c192 epsD (outerW c192 epsD (innerNoW c16 eps3 r) wa) wb

/-- The third branch on a row of 192 groups of 24: by group with weight `wa`, by row, by group with weight `wb`. -/
def zrow (r : Fin 192 → Fin 24 → EReal) (wa wb : Fin 24 → EReal) : Fin 192 → Fin 24 → EReal :=
  inner c24 epsD (outerNoW c4608 eps2 (inner c24 epsD r wa)) wb

end Cert.Norm

end
-- ==== Proof.SpecArrays.lean ====
/-
  The three chains of Proof/Spec.lean applied to whole arrays: the functions both programs' results are proved equal to.

  `GX`, `GY`, `GZ` are stated on the arguments' own shapes ([32,512,12,24], [32,512,12,16], [32,512,12,16,24]): the
  entry at (b, s, …) is the chain applied to row (b, s) of the argument. `FX`, `FY`, `FZ` are the same functions on the
  flat views [R, 288], [R, 192], [R, 4608] a row of which is one row of the argument laid out in row-major order, with
  the weights as the [1, 24] or [1, 192] rows they are passed as; a row's entry `j` is position `j % E` of group `j / E`.
  They are generic in the number `R` of rows, so that they speak of a block of rows and of the whole array alike.
-/
import proofs.«112269_j45191645889359_2_alg».proof.Proof.Spec

noncomputable section

namespace Cert.Norm

open Idealize.ShloMosaic Idealize.ShloMosaic.ValueIdx

/-! ## A flat position and its group and place -/

/-- Entry `e` of group `g` sits at flat position `E * g + e`. -/
def flat (K : ℕ) {G E : ℕ} (h : G * E = K) (g : Fin G) (e : Fin E) : Fin K :=
  ⟨E * g.val + e.val, by
    have hg := g.isLt; have he := e.isLt
    calc E * g.val + e.val < E * g.val + E := by omega
      _ = E * (g.val + 1) := by ring
      _ ≤ E * G := Nat.mul_le_mul_left E hg
      _ = K := by rw [Nat.mul_comm]; exact h⟩

/-- The group of a flat position. -/
def grp (E : ℕ) {K G : ℕ} (h : G * E = K) (j : Fin K) : Fin G :=
  ⟨j.val / E, by
    have hj := j.isLt
    rcases Nat.eq_zero_or_pos E with hE | hE
    · subst hE; rw [Nat.mul_zero] at h; omega
    · exact (Nat.div_lt_iff_lt_mul hE).2 (by rw [h]; exact hj)⟩

/-- The place of a flat position inside its group. -/
def pos (E : ℕ) {K : ℕ} (hE : 0 < E) (j : Fin K) : Fin E := ⟨j.val % E, Nat.mod_lt _ hE⟩

@[simp] theorem flat_val (K : ℕ) {G E : ℕ} (h : G * E = K) (g : Fin G) (e : Fin E) : (flat K h g e).val = E * g.val + e.val := rfl
@[simp] theorem grp_val (E : ℕ) {K G : ℕ} (h : G * E = K) (j : Fin K) : (grp E h j).val = j.val / E := rfl
@[simp] theorem pos_val (E : ℕ) {K : ℕ} (hE : 0 < E) (j : Fin K) : (pos E hE j).val = j.val % E := rfl

theorem flat_grp_pos (E : ℕ) {K G : ℕ} (h : G * E = K) (hE : 0 < E) (j : Fin K) : flat K h (grp E h j) (pos E hE j) = j :=
  Fin.ext (by simp only [flat_val, grp_val, pos_val]; exact Nat.div_add_mod _ _)

theorem grp_flat (K : ℕ) {G E : ℕ} (h : G * E = K) (g : Fin G) (e : Fin E) : grp E h (flat K h g e) = g :=
  Fin.ext (by
    have he := e.isLt
    simp only [flat_val, grp_val]
    rw [Nat.mul_add_div (by omega), Nat.div_eq_of_lt he, Nat.add_zero])

theorem pos_flat (K : ℕ) {G E : ℕ} (h : G * E = K) (hE : 0 < E) (g : Fin G) (e : Fin E) : pos E hE (flat K h g e) = e :=
  Fin.ext (by
    have he := e.isLt
    simp only [flat_val, pos_val]
    rw [Nat.mul_add_mod, Nat.mod_eq_of_lt he])

/-- Groups and places are the coordinates of flat positions. -/
def flatEquiv (K : ℕ) {G E : ℕ} (h : G * E = K) (hE : 0 < E) : Fin G × Fin E ≃ Fin K where
  toFun p := flat K h p.1 p.2
  invFun j := (grp E h j, pos E hE j)
  left_inv p := Prod.ext (grp_flat K h p.1 p.2) (pos_flat K h hE p.1 p.2)
  right_inv j := flat_grp_pos E h hE j

/-- A sum over the flat positions of a row is the sum over its groups of the sums over each group's places. -/
theorem sum_flat {M : Type*} [AddCommMonoid M] (K : ℕ) {G E : ℕ} (h : G * E = K) (hE : 0 < E) (f : Fin K → M) :
    ∑ j : Fin K, f j = ∑ g : Fin G, ∑ e : Fin E, f (flat K h g e) := by
  rw [← (flatEquiv K h hE).sum_comp f, Fintype.sum_prod_type]
  rfl

/-! ## The first branch -/

/-- On the argument's own shape. -/
def GX (a : (⟨4, ![32, 512, 12, 24]⟩ : Shape).Idx → EReal) (wa wb : (⟨1, ![24]⟩ : Shape).Idx → EReal) :
    (⟨4, ![32, 512, 12, 24]⟩ : Shape).Idx → EReal :=
  fun i => xrow (fun g e => a (ix4 (i 0) (i 1) g e)) (fun e => wa (ix1 e)) (fun e => wb (ix1 e)) (i 2) (i 3)

theorem GX_apply (a : (⟨4, ![32, 512, 12, 24]⟩ : Shape).Idx → EReal) (wa wb : (⟨1, ![24]⟩ : Shape).Idx → EReal)
    (b : Fin 32) (s : Fin 512) (g : Fin 12) (e : Fin 24) :
    GX a wa wb (ix4 b s g e) = xrow (fun g e => a (ix4 b s g e)) (fun e => wa (ix1 e)) (fun e => wb (ix1 e)) g e := rfl

/-- On the flat view, `R` rows of 288 = 12 × 24, the weights as [1, 24] rows. -/
def FX (R : ℕ) (x : (⟨2, ![R, 288]⟩ : Shape).Idx → EReal) (wa wb : (⟨2, ![1, 24]⟩ : Shape).Idx → EReal) :
    (⟨2, ![R, 288]⟩ : Shape).Idx → EReal :=
  fun i => xrow (fun g e => x (ix2 (i 0) (flat 288 (G := 12) (E := 24) rfl g e))) (fun e => wa (ix2 0 e)) (fun e => wb (ix2 0 e))
    (grp 24 (G := 12) rfl (i 1)) (pos 24 (by decide) (i 1))

theorem FX_apply (R : ℕ) (x : (⟨2, ![R, 288]⟩ : Shape).Idx → EReal) (wa wb : (⟨2, ![1, 24]⟩ : Shape).Idx → EReal)
    (p : Fin R) (j : Fin 288) :
    FX R x wa wb (ix2 p j) = xrow (fun g e => x (ix2 p (flat 288 (G := 12) (E := 24) rfl g e))) (fun e => wa (ix2 0 e)) (fun e => wb (ix2 0 e))
      (grp 24 (G := 12) rfl j) (pos 24 (by decide) j) := rfl

/-! ## The second branch -/

/-- On the argument's own shape, the weights [12, 16]. -/
def GY (a : (⟨4, ![32, 512, 12, 16]⟩ : Shape).Idx → EReal) (wa wb : (⟨2, ![12, 16]⟩ : Shape).Idx → EReal) :
    (⟨4, ![32, 512, 12, 16]⟩ : Shape).Idx → EReal :=
  fun i => yrow (fun g e => a (ix4 (i 0) (i 1) g e)) (fun g e => wa (ix2 g e)) (fun g e => wb (ix2 g e)) (i 2) (i 3)

theorem GY_apply (a : (⟨4, ![32, 512, 12, 16]⟩ : Shape).Idx → EReal) (wa wb : (⟨2, ![12, 16]⟩ : Shape).Idx → EReal)
    (b : Fin 32) (s : Fin 512) (g : Fin 12) (e : Fin 16) :
    GY a wa wb (ix4 b s g e) = yrow (fun g e => a (ix4 b s g e)) (fun g e => wa (ix2 g e)) (fun g e => wb (ix2 g e)) g e := rfl

/-- On the flat view, `R` rows of 192 = 12 × 16, the weights as [1, 192] rows. -/
def FY (R : ℕ) (x : (⟨2, ![R, 192]⟩ : Shape).Idx → EReal) (wa wb : (⟨2, ![1, 192]⟩ : Shape).Idx → EReal) :
    (⟨2, ![R, 192]⟩ : Shape).Idx → EReal :=
  fun i => yrow (fun g e => x (ix2 (i 0) (flat 192 (G := 12) (E := 16) rfl g e)))
    (fun g e => wa (ix2 0 (flat 192 (G := 12) (E := 16) rfl g e))) (fun g e => wb (ix2 0 (flat 192 (G := 12) (E := 16) rfl g e)))
    (grp 16 (G := 12) rfl (i 1)) (pos 16 (by decide) (i 1))

theorem FY_apply (R : ℕ) (x : (⟨2, ![R, 192]⟩ : Shape).Idx → EReal) (wa wb : (⟨2, ![1, 192]⟩ : Shape).Idx → EReal)
    (p : Fin R) (j : Fin 192) :
    FY R x wa wb (ix2 p j) = yrow (fun g e => x (ix2 p (flat 192 (G := 12) (E := 16) rfl g e)))
      (fun g e => wa (ix2 0 (flat 192 (G := 12) (E := 16) rfl g e))) (fun g e => wb (ix2 0 (flat 192 (G := 12) (E := 16) rfl g e)))
      (grp 16 (G := 12) rfl j) (pos 16 (by decide) j) := rfl

/-! ## The third branch -/

/-- On the argument's own shape: row (b, s) is 192 = 12 × 16 groups of 24. -/
def GZ (a : (⟨5, ![32, 512, 12, 16, 24]⟩ : Shape).Idx → EReal) (wa wb : (⟨1, ![24]⟩ : Shape).Idx → EReal) :
    (⟨5, ![32, 512, 12, 16, 24]⟩ : Shape).Idx → EReal :=
  fun i => zrow (fun q e => a (ix5 (i 0) (i 1) (grp 16 (G := 12) rfl q) (pos 16 (by decide) q) e))
    (fun e => wa (ix1 e)) (fun e => wb (ix1 e)) (flat 192 (G := 12) (E := 16) rfl (i 2) (i 3)) (i 4)

theorem GZ_apply (a : (⟨5, ![32, 512, 12, 16, 24]⟩ : Shape).Idx → EReal) (wa wb : (⟨1, ![24]⟩ : Shape).Idx → EReal)
    (b : Fin 32) (s : Fin 512) (g : Fin 12) (h : Fin 16) (e : Fin 24) :
    GZ a wa wb (ix5 b s g h e) = zrow (fun q e => a (ix5 b s (grp 16 (G := 12) rfl q) (pos 16 (by decide) q) e))
      (fun e => wa (ix1 e)) (fun e => wb (ix1 e)) (flat 192 (G := 12) (E := 16) rfl g h) e := rfl

/-- On the flat view, `R` rows of 4608 = 192 × 24, the weights as [1, 24] rows. -/
def FZ (R : ℕ) (x : (⟨2, ![R, 4608]⟩ : Shape).Idx → EReal) (wa wb : (⟨2, ![1, 24]⟩ : Shape).Idx → EReal) :
    (⟨2, ![R, 4608]⟩ : Shape).Idx → EReal :=
  fun i => zrow (fun q e => x (ix2 (i 0) (flat 4608 (G := 192) (E := 24) rfl q e))) (fun e => wa (ix2 0 e)) (fun e => wb (ix2 0 e))
    (grp 24 (G := 192) rfl (i 1)) (pos 24 (by decide) (i 1))

theorem FZ_apply (R : ℕ) (x : (⟨2, ![R, 4608]⟩ : Shape).Idx → EReal) (wa wb : (⟨2, ![1, 24]⟩ : Shape).Idx → EReal)
    (p : Fin R) (j : Fin 4608) :
    FZ R x wa wb (ix2 p j) = zrow (fun q e => x (ix2 p (flat 4608 (G := 192) (E := 24) rfl q e))) (fun e => wa (ix2 0 e)) (fun e => wb (ix2 0 e))
      (grp 24 (G := 192) rfl j) (pos 24 (by decide) j) := rfl

end Cert.Norm

end
-- ==== Proof.LibRowGroups.lean ====
/-
  Rows viewed as groups: a block of R rows of K = G * E entries, read as R rows of G groups of E entries and back.

  Each lemma reads ONE layout operation, or one sum along an axis, at an index given by its coordinates; then the two
  normalisation stages a row goes through (by group, by row) are read as functions of the row.
-/
import proofs.«112269_j45191645889359_2_alg».proof.Proof.SpecArrays
import Idealize.ShloMosaic.PureOps.Ideal.Laws
import Idealize.ShloMosaic.Lib.ValueIdx
import Idealize.ShloMosaic.Lib.ValueLayout
import Idealize.ShloMosaic.Lib.Pipeline.Value

noncomputable section

namespace Cert.RowGroups

open Idealize.ShloMosaic Idealize.ShloMosaic.ValueIdx Cert.Norm

variable {α : Type} {R G E K : ℕ}

/-! ## Shape casts between [R, K] and [R, G, E], and the unit-axis casts -/

/-- [R, K] viewed as [R, G, E]: entry (p, g, e) is the source at (p, E * g + e). -/
theorem cast_groups_apply (hK : G * E = K) (x : (⟨2, ![R, K]⟩ : Shape).Idx → α)
    (h : (⟨2, ![R, K]⟩ : Shape).ShapeCasts ⟨3, ![R, G, E]⟩) (p : Fin R) (g : Fin G) (e : Fin E) :
    shapeCast ⟨3, ![R, G, E]⟩ x h (ix3 p g e) = x (ix2 p (flat K hK g e)) :=
  shapeCast_apply x h _ _ (by
    rw [Shape.rowMajor_val_two, Shape.rowMajor_val_three]
    show p.val * K + (E * g.val + e.val) = (p.val * G + g.val) * E + e.val
    subst hK; ring)

/-- [R, G, E] viewed as [R, K]: entry (p, j) is the source at (p, j / E, j % E). -/
theorem cast_flat_apply (hK : G * E = K) (hE : 0 < E) (x : (⟨3, ![R, G, E]⟩ : Shape).Idx → α)
    (h : (⟨3, ![R, G, E]⟩ : Shape).ShapeCasts ⟨2, ![R, K]⟩) (p : Fin R) (j : Fin K) :
    shapeCast ⟨2, ![R, K]⟩ x h (ix2 p j) = x (ix3 p (grp E hK j) (pos E hE j)) :=
  shapeCast_apply x h _ _ (by
    rw [Shape.rowMajor_val_two, Shape.rowMajor_val_three]
    show (p.val * G + j.val / E) * E + j.val % E = p.val * K + j.val
    have hj := Nat.div_add_mod j.val E
    subst hK
    calc (p.val * G + j.val / E) * E + j.val % E = p.val * (G * E) + (E * (j.val / E) + j.val % E) := by ring
      _ = p.val * (G * E) + j.val := by rw [hj])

/-- [R, G] with a unit axis appended. -/
theorem cast_keep2_apply (x : (⟨2, ![R, G]⟩ : Shape).Idx → α)
    (h : (⟨2, ![R, G]⟩ : Shape).ShapeCasts ⟨3, ![R, G, 1]⟩) (p : Fin R) (g : Fin G) (u : Fin 1) :
    shapeCast ⟨3, ![R, G, 1]⟩ x h (ix3 p g u) = x (ix2 p g) :=
  shapeCast_apply x h _ _ (by
    have hu : u.val = 0 := by omega
    rw [Shape.rowMajor_val_two, Shape.rowMajor_val_three]
    show p.val * G + g.val = (p.val * G + g.val) * 1 + u.val
    rw [hu, Nat.mul_one, Nat.add_zero])

/-- [R] with a unit axis appended. -/
theorem cast_keep1_apply (x : (⟨1, ![R]⟩ : Shape).Idx → α)
    (h : (⟨1, ![R]⟩ : Shape).ShapeCasts ⟨2, ![R, 1]⟩) (p : Fin R) (u : Fin 1) :
    shapeCast ⟨2, ![R, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A [1, E] row with a leading unit axis added. -/
theorem cast_row3_apply (x : (⟨2, ![1, E]⟩ : Shape).Idx → α)
    (h : (⟨2, ![1, E]⟩ : Shape).ShapeCasts ⟨3, ![1, 1, E]⟩) (u v : Fin 1) (e : Fin E) :
    shapeCast ⟨3, ![1, 1, E]⟩ x h (ix3 u v e) = x (ix2 (0 : Fin 1) e) := by
  obtain rfl : v = 0 := Subsingleton.elim _ _
  exact shapeCast_ab_1ab_apply x h u 0 e

/-! ## Broadcasts -/

/-- One value per group spread over the group's entries. -/
theorem bcast_group_apply (v : (⟨3, ![R, G, 1]⟩ : Shape).Idx → α)
    (h : (⟨3, ![R, G, 1]⟩ : Shape).Broadcasts ⟨3, ![R, G, E]⟩) (p : Fin R) (g : Fin G) (e : Fin E) :
    broadcastTo ⟨3, ![R, G, E]⟩ v h (ix3 p g e) = v (ix3 p g (0 : Fin 1)) := by
  refine broadcastTo_apply v h (ix3 p g e) (ix3 p g (0 : Fin 1)) fun ax => ?_
  match ax with
  | ⟨0, _⟩ =>
    show p.val = if R = 1 then 0 else p.val
    split
    · have := p.isLt; omega
    · rfl
  | ⟨1, _⟩ =>
    show g.val = if G = 1 then 0 else g.val
    split
    · have := g.isLt; omega
    · rfl
  | ⟨2, _⟩ => rfl

/-- One weight per place spread over every row and group. -/
theorem bcast_place_apply (v : (⟨3, ![1, 1, E]⟩ : Shape).Idx → α)
    (h : (⟨3, ![1, 1, E]⟩ : Shape).Broadcasts ⟨3, ![R, G, E]⟩) (p : Fin R) (g : Fin G) (e : Fin E) :
    broadcastTo ⟨3, ![R, G, E]⟩ v h (ix3 p g e) = v (ix3 (0 : Fin 1) (0 : Fin 1) e) := by
  refine broadcastTo_apply v h (ix3 p g e) (ix3 (0 : Fin 1) (0 : Fin 1) e) fun ax => ?_
  match ax with
  | ⟨0, _⟩ => rfl
  | ⟨1, _⟩ => rfl
  | ⟨2, _⟩ =>
    show e.val = if E = 1 then 0 else e.val
    split
    · have := e.isLt; omega
    · rfl

/-- One value per row spread over the row. -/
theorem bcast_row_apply (v : (⟨2, ![R, 1]⟩ : Shape).Idx → α)
    (h : (⟨2, ![R, 1]⟩ : Shape).Broadcasts ⟨2, ![R, K]⟩) (p : Fin R) (j : Fin K) :
    broadcastTo ⟨2, ![R, K]⟩ v h (ix2 p j) = v (ix2 p (0 : Fin 1)) := by
  refine broadcastTo_apply v h (ix2 p j) (ix2 p (0 : Fin 1)) fun ax => ?_
  match ax with
  | ⟨0, _⟩ =>
    show p.val = if R = 1 then 0 else p.val
    split
    · have := p.isLt; omega
    · rfl
  | ⟨1, _⟩ => rfl

/-! ## Sums along an axis, at the ideal values -/

/-- The sum over axis 2 of [R, G, E] at (p, g) is the sum over the places of group g of row p. -/
theorem sum_places_apply (src : FVec Ideal ⟨3, ![R, G, E]⟩ .f32)
    (h : (⟨3, ![R, G, E]⟩ : Shape).Reduces [2] ⟨2, ![R, G]⟩) (hφ : FKind.Formats .f32)
    (hacc : (0x00000000#32 : BitVec 32) = 0x00000000#32) (p : Fin R) (g : Fin G) :
    multiReduction (F := Ideal) .add [2] ⟨2, ![R, G]⟩ src 0x00000000#32 h hφ hacc (ix2 p g)
      = ∑ e : Fin E, src (ix3 p g e) := by
  refine (Ideal.multiReduction_add_single src 0x00000000#32 h hφ hacc (ix2 p g)).trans ?_
  refine Finset.sum_congr rfl fun e _ => congrArg src ?_
  funext c
  refine Fin.ext ?_
  match c with
  | ⟨0, _⟩ => rfl
  | ⟨1, _⟩ => rfl
  | ⟨2, _⟩ => rfl

/-- The sum over axis 1 of [R, K] at p is the sum over row p. -/
theorem sum_row_apply (src : FVec Ideal ⟨2, ![R, K]⟩ .f32)
    (h : (⟨2, ![R, K]⟩ : Shape).Reduces [1] ⟨1, ![R]⟩) (hφ : FKind.Formats .f32)
    (hacc : (0x00000000#32 : BitVec 32) = 0x00000000#32) (p : Fin R) :
    multiReduction (F := Ideal) .add [1] ⟨1, ![R]⟩ src 0x00000000#32 h hφ hacc (ix1 p)
      = ∑ j : Fin K, src (ix2 p j) := by
  refine (Ideal.multiReduction_add_single src 0x00000000#32 h hφ hacc (ix1 p)).trans ?_
  refine Finset.sum_congr rfl fun j _ => congrArg src ?_
  funext c
  refine Fin.ext ?_
  match c with
  | ⟨0, _⟩ => rfl
  | ⟨1, _⟩ => rfl

/-! ## A block and its rows -/

/-- Row p of a block, as groups of entries. -/
def rowOf (hK : G * E = K) (x : (⟨2, ![R, K]⟩ : Shape).Idx → EReal) (p : Fin R) : Fin G → Fin E → EReal :=
  fun g e => x (ix2 p (flat K hK g e))

/-- The block whose row p, as groups of entries, is f p. -/
def ofRows (hK : G * E = K) (hE : 0 < E) (f : Fin R → Fin G → Fin E → EReal) : (⟨2, ![R, K]⟩ : Shape).Idx → EReal :=
  fun i => f (i 0) (grp E hK (i 1)) (pos E hE (i 1))

theorem ofRows_apply (hK : G * E = K) (hE : 0 < E) (f : Fin R → Fin G → Fin E → EReal) (p : Fin R) (j : Fin K) :
    ofRows hK hE f (ix2 p j) = f p (grp E hK j) (pos E hE j) := rfl

/-- The rows of the block built from f are f's. -/
theorem rowOf_ofRows (hK : G * E = K) (hE : 0 < E) (f : Fin R → Fin G → Fin E → EReal) (p : Fin R) :
    rowOf hK (ofRows hK hE f) p = f p := by
  funext g e
  show f p (grp E hK (flat K hK g e)) (pos E hE (flat K hK g e)) = f p g e
  rw [grp_flat, pos_flat]

/-! ## The shape facts each stage's operations cite -/

/-- What normalising by group cites: the two views of a block, and the group sum's shapes. -/
structure GroupFacts (R G E K : ℕ) : Prop where
  hK : G * E = K
  hE : 0 < E
  castG : (⟨2, ![R, K]⟩ : Shape).ShapeCasts ⟨3, ![R, G, E]⟩
  castF : (⟨3, ![R, G, E]⟩ : Shape).ShapeCasts ⟨2, ![R, K]⟩
  red : (⟨3, ![R, G, E]⟩ : Shape).Reduces [2] ⟨2, ![R, G]⟩
  keep : (⟨2, ![R, G]⟩ : Shape).ShapeCasts ⟨3, ![R, G, 1]⟩
  bc : (⟨3, ![R, G, 1]⟩ : Shape).Broadcasts ⟨3, ![R, G, E]⟩

/-- What weighing by place cites. -/
structure PlaceFacts (R G E : ℕ) : Prop where
  cast : (⟨2, ![1, E]⟩ : Shape).ShapeCasts ⟨3, ![1, 1, E]⟩
  bc : (⟨3, ![1, 1, E]⟩ : Shape).Broadcasts ⟨3, ![R, G, E]⟩

/-- What normalising by row cites. -/
structure RowFacts (R K : ℕ) : Prop where
  red : (⟨2, ![R, K]⟩ : Shape).Reduces [1] ⟨1, ![R]⟩
  keep : (⟨1, ![R]⟩ : Shape).ShapeCasts ⟨2, ![R, 1]⟩
  bc : (⟨2, ![R, 1]⟩ : Shape).Broadcasts ⟨2, ![R, K]⟩

/-! ## Normalising by group -/

/-- Each entry times the reciprocal root of (its group's sum of squares / n + eps): the operations, in order. -/
def groupNorm (F : GroupFacts R G E K) (n eps : EReal) (v : FVec Ideal ⟨3, ![R, G, E]⟩ .f32) :
    FVec Ideal ⟨3, ![R, G, E]⟩ .f32 :=
  mulf v (broadcastTo ⟨3, ![R, G, E]⟩
    (rsqrt (addf (divf (shapeCast ⟨3, ![R, G, 1]⟩
        (multiReduction .add [2] ⟨2, ![R, G]⟩ (mulf v v) 0x00000000#32 F.red (.inl rfl) rfl) F.keep)
      (broadcast ⟨3, ![R, G, 1]⟩ n)) (broadcast ⟨3, ![R, G, 1]⟩ eps))) F.bc)

theorem groupNorm_apply (F : GroupFacts R G E K) (n eps : EReal) (v : FVec Ideal ⟨3, ![R, G, E]⟩ .f32)
    (p : Fin R) (g : Fin G) (e : Fin E) :
    groupNorm F n eps v (ix3 p g e) = v (ix3 p g e) * rs n eps (∑ k : Fin E, v (ix3 p g k) * v (ix3 p g k)) := by
  unfold groupNorm
  rw [mulf_apply, bcast_group_apply]
  show v (ix3 p g e) * Ideal.rsqrt (Ideal.div (shapeCast ⟨3, ![R, G, 1]⟩ _ F.keep (ix3 p g (0 : Fin 1))) n + eps) = _
  rw [cast_keep2_apply, sum_places_apply]
  rfl

/-- By group, then weighed by place, on the flat view. -/
def byGroupW (F : GroupFacts R G E K) (W : PlaceFacts R G E) (n eps : EReal) (x : FVec Ideal ⟨2, ![R, K]⟩ .f32)
    (w : FVec Ideal ⟨2, ![1, E]⟩ .f32) : FVec Ideal ⟨2, ![R, K]⟩ .f32 :=
  shapeCast ⟨2, ![R, K]⟩ (mulf (groupNorm F n eps (shapeCast ⟨3, ![R, G, E]⟩ x F.castG))
    (broadcastTo ⟨3, ![R, G, E]⟩ (shapeCast ⟨3, ![1, 1, E]⟩ w W.cast) W.bc)) F.castF

theorem byGroupW_eq (F : GroupFacts R G E K) (W : PlaceFacts R G E) (n eps : EReal) (x : FVec Ideal ⟨2, ![R, K]⟩ .f32)
    (w : FVec Ideal ⟨2, ![1, E]⟩ .f32) :
    byGroupW F W n eps x w
      = ofRows F.hK F.hE (fun p => inner n eps (rowOf F.hK x p) (fun e => w (ix2 (0 : Fin 1) e))) := by
  funext i
  obtain ⟨p, j, rfl⟩ : ∃ (p : Fin R) (j : Fin K), i = ix2 p j := ⟨i 0, i 1, eq_ix2 i⟩
  rw [ofRows_apply]
  unfold byGroupW
  rw [cast_flat_apply F.hK F.hE, mulf_apply, groupNorm_apply, bcast_place_apply, cast_row3_apply]
  simp only [cast_groups_apply F.hK]
  rfl

/-- By group, no weight, on the flat view. -/
def byGroup (F : GroupFacts R G E K) (n eps : EReal) (x : FVec Ideal ⟨2, ![R, K]⟩ .f32) : FVec Ideal ⟨2, ![R, K]⟩ .f32 :=
  shapeCast ⟨2, ![R, K]⟩ (groupNorm F n eps (shapeCast ⟨3, ![R, G, E]⟩ x F.castG)) F.castF

theorem byGroup_eq (F : GroupFacts R G E K) (n eps : EReal) (x : FVec Ideal ⟨2, ![R, K]⟩ .f32) :
    byGroup F n eps x = ofRows F.hK F.hE (fun p => innerNoW n eps (rowOf F.hK x p)) := by
  funext i
  obtain ⟨p, j, rfl⟩ : ∃ (p : Fin R) (j : Fin K), i = ix2 p j := ⟨i 0, i 1, eq_ix2 i⟩
  rw [ofRows_apply]
  unfold byGroup
  rw [cast_flat_apply F.hK F.hE, groupNorm_apply]
  simp only [cast_groups_apply F.hK]
  rfl

/-! ## Normalising by row -/

/-- Each entry times the reciprocal root of (its row's sum of squares / n + eps): the operations, in order. -/
def byRow (Q : RowFacts R K) (n eps : EReal) (x : FVec Ideal ⟨2, ![R, K]⟩ .f32) : FVec Ideal ⟨2, ![R, K]⟩ .f32 :=
  mulf x (broadcastTo ⟨2, ![R, K]⟩
    (rsqrt (addf (divf (shapeCast ⟨2, ![R, 1]⟩
        (multiReduction .add [1] ⟨1, ![R]⟩ (mulf x x) 0x00000000#32 Q.red (.inl rfl) rfl) Q.keep)
      (broadcast ⟨2, ![R, 1]⟩ n)) (broadcast ⟨2, ![R, 1]⟩ eps))) Q.bc)

theorem byRow_apply (Q : RowFacts R K) (n eps : EReal) (x : FVec Ideal ⟨2, ![R, K]⟩ .f32) (p : Fin R) (j : Fin K) :
    byRow Q n eps x (ix2 p j) = x (ix2 p j) * rs n eps (∑ i : Fin K, x (ix2 p i) * x (ix2 p i)) := by
  unfold byRow
  rw [mulf_apply, bcast_row_apply]
  show x (ix2 p j) * Ideal.rsqrt (Ideal.div (shapeCast ⟨2, ![R, 1]⟩ _ Q.keep (ix2 p (0 : Fin 1))) n + eps) = _
  rw [cast_keep1_apply, sum_row_apply]
  rfl

theorem byRow_eq (Q : RowFacts R K) (hK : G * E = K) (hE : 0 < E) (n eps : EReal) (x : FVec Ideal ⟨2, ![R, K]⟩ .f32) :
    byRow Q n eps x = ofRows hK hE (fun p => outerNoW n eps (rowOf hK x p)) := by
  funext i
  obtain ⟨p, j, rfl⟩ : ∃ (p : Fin R) (j : Fin K), i = ix2 p j := ⟨i 0, i 1, eq_ix2 i⟩
  rw [ofRows_apply, byRow_apply, sum_flat K hK hE]
  show _ = x (ix2 p (flat K hK (grp E hK j) (pos E hE j))) * rs n eps (rowSq (rowOf hK x p))
  rw [flat_grp_pos]
  rfl

/-- By row, then weighed by the position in the row. -/
def byRowW (Q : RowFacts R K) (hb : (⟨2, ![1, K]⟩ : Shape).Broadcasts ⟨2, ![R, K]⟩) (n eps : EReal)
    (x : FVec Ideal ⟨2, ![R, K]⟩ .f32) (w : FVec Ideal ⟨2, ![1, K]⟩ .f32) : FVec Ideal ⟨2, ![R, K]⟩ .f32 :=
  mulf (byRow Q n eps x) (broadcastTo ⟨2, ![R, K]⟩ w hb)

theorem byRowW_eq (Q : RowFacts R K) (hb : (⟨2, ![1, K]⟩ : Shape).Broadcasts ⟨2, ![R, K]⟩) (hK : G * E = K) (hE : 0 < E)
    (n eps : EReal) (x : FVec Ideal ⟨2, ![R, K]⟩ .f32) (w : FVec Ideal ⟨2, ![1, K]⟩ .f32) :
    byRowW Q hb n eps x w
      = ofRows hK hE (fun p => outerW n eps (rowOf hK x p) (fun g e => w (ix2 (0 : Fin 1) (flat K hK g e)))) := by
  funext i
  obtain ⟨p, j, rfl⟩ : ∃ (p : Fin R) (j : Fin K), i = ix2 p j := ⟨i 0, i 1, eq_ix2 i⟩
  rw [ofRows_apply]
  unfold byRowW
  rw [mulf_apply, broadcastTo_1b_ab_apply, byRow_eq Q hK hE, ofRows_apply]
  show _ = rowOf hK x p (grp E hK j) (pos E hE j) * rs n eps (rowSq (rowOf hK x p))
      * w (ix2 (0 : Fin 1) (flat K hK (grp E hK j) (pos E hE j)))
  rw [flat_grp_pos]
  rfl

end Cert.RowGroups

end
-- ==== Proof.PayloadX.lean ====
/-
  The first kernel's body at the ideal values, read at an index.
-/
import proofs.«112269_j45191645889359_2_alg».proof.Proof.Gen.KernelIdeal.Skeleton
import proofs.«112269_j45191645889359_2_alg».proof.Proof.SpecArrays
import proofs.«112269_j45191645889359_2_alg».proof.Proof.LibRowGroups
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Norm Cert.RowGroups

/-- The first kernel's block is 2048 rows of 288 = 12 × 24 entries. -/
theorem groupsX : GroupFacts 2048 12 24 288 :=
  ⟨rfl, by decide, shapeCasts_S2048x288_S2048x12x24, shapeCasts_S2048x12x24_S2048x288, reduces_S2048x12x24_S2048x12,
    shapeCasts_S2048x12_S2048x12x1, broadcasts_S2048x12x1_S2048x12x24⟩

/-- Its weights are rows of 24, one entry per place in a group. -/
theorem placesX : PlaceFacts 2048 12 24 := ⟨shapeCasts_S1x24_S1x1x24, broadcasts_S1x1x24_S2048x12x24⟩

/-- Its row sums run over the 288 entries of a row. -/
theorem rowsX : RowFacts 2048 288 := ⟨reduces_S2048x288_S2048, shapeCasts_S2048_S2048x1, broadcasts_S2048x1_S2048x288⟩

/-- The body is three stages on the flat view: by group with the first weight, by row, by group with the second weight. -/
theorem payX_stages (x0 : Vec Ideal S2048x288 .f32) (x1 x2 : Vec Ideal S1x24 .f32) :
    k0_pay1 (F := Ideal) (k0_pay2 x0 x1) (k0_pay3 x2)
      = byGroupW groupsX placesX c24 epsD (byRow rowsX c288 epsD (byGroupW groupsX placesX c24 epsD x0 x1)) x2 := by
  unfold k0_pay1 k0_pay2 k0_pay3
  simp only [shapeCast_self]
  rfl

/-- What the first kernel's body stores, as a function of the three blocks it loads: the first branch's chain on each row of the block. -/
theorem payX (x0 : Vec Ideal S2048x288 .f32) (x1 x2 : Vec Ideal S1x24 .f32) :
    k0_pay1 (F := Ideal) (k0_pay2 x0 x1) (k0_pay3 x2) = FX 2048 x0 x1 x2 := by
  rw [payX_stages, byGroupW_eq, byRow_eq rowsX groupsX.hK groupsX.hE, byGroupW_eq]
  funext i
  simp only [rowOf_ofRows]
  rfl

end Cert.KernelIdeal.Pay

end
-- ==== Proof.RegionX.lean ====
/-
  The first kernel's result array after its grid, as one function of its operand arrays.
-/
import proofs.«112269_j45191645889359_2_alg».proof.Proof.Gen.KernelIdeal.Frame
import proofs.«112269_j45191645889359_2_alg».proof.Proof.PayloadX
import Idealize.ShloMosaic.Lib.Pipeline.Value
import Idealize.ShloMosaic.Lib.Tactic

set_option maxRecDepth 16384

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen Cert.Norm

variable (V : (c : Dev nD) → (b : Ref sig .tc) → Buf (Elt Ideal) ((c : Thread nD τ).loc b))

/-- The chain of a row depends only on that row and on the two weight rows: a block whose row `p` is row `r` of an array, with the
    same weight rows, has at row `p` the chain the array has at row `r`. -/
theorem rowCongrX {R R' : ℕ} (x : (⟨2, ![R, 288]⟩ : Shape).Idx → EReal) (x' : (⟨2, ![R', 288]⟩ : Shape).Idx → EReal)
    (wa wb wa' wb' : (⟨2, ![1, 24]⟩ : Shape).Idx → EReal) (p : Fin R) (r : Fin R') (j : Fin 288)
    (hx : ∀ k : Fin 288, x (ix2 p k) = x' (ix2 r k)) (ha : ∀ e : Fin 24, wa (ix2 0 e) = wa' (ix2 0 e))
    (hb : ∀ e : Fin 24, wb (ix2 0 e) = wb' (ix2 0 e)) :
    FX R x wa wb (ix2 p j) = FX R' x' wa' wb' (ix2 r j) := by
  rw [FX_apply, FX_apply]
  have e0 : (fun (g : Fin 12) (e : Fin 24) => x (ix2 p (flat 288 (G := 12) (E := 24) rfl g e)))
      = fun g e => x' (ix2 r (flat 288 (G := 12) (E := 24) rfl g e)) := funext fun g => funext fun e => hx _
  have e1 : (fun e : Fin 24 => wa (ix2 0 e)) = fun e => wa' (ix2 0 e) := funext ha
  have e2 : (fun e : Fin 24 => wb (ix2 0 e)) = fun e => wb' (ix2 0 e) := funext hb
  rw [e0, e1, e2]

/-- The zero offset, as the constant function. -/
theorem zeroOffX : (![0, 0] : Fin 2 → Nat) = fun _ => 0 := funext fun a => by fin_cases a <;> rfl

/-- The block index of each window at each of the eight points: the operand's and the result's blocks are block `t` of rows and the one
    block of columns; the two weight rows are always the whole row. -/
theorem blockIdxX : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the operand's block at point `t` is row `2048 t + p` of the operand. -/
theorem operandBlkX (c : Dev nD) (t : Fin cfg0.N) (p : Fin 2048) (j : Fin 288) (h : 2048 * t.val + p.val < 16384) :
    (iblk0 V c 0 t : Vec Ideal S2048x288 .f32) (ix2 p j) = (V c main_v0 : S16384x288.Idx → EReal) (ix2 ⟨2048 * t.val + p.val, h⟩ j) := by
  obtain ⟨e0, e1, -⟩ := blockIdxX t
  unfold iblk0
  rw [View.read_apply]
  show V c main_v0 (((cfg0.win 0).blk t).view.emb (ix2 p j)) = V c main_v0 _
  refine congrArg _ ?_
  funext a; apply Fin.ext
  match a with
  | ⟨0, _⟩ => show win0_0.index t (0 : Fin 2) * 2048 + 1 * p.val = 2048 * t.val + p.val; rw [e0]; omega
  | ⟨1, _⟩ => show win0_0.index t (1 : Fin 2) * 288 + 1 * j.val = j.val; rw [e1]; omega

/-- The first weight row's block at any point is the row itself. -/
theorem weightABlkX (c : Dev nD) (t : Fin cfg0.N) (e : Fin 24) :
    (iblk0 V c 1 t : Vec Ideal S1x24 .f32) (ix2 0 e) = (V c main_v3 : S1x24.Idx → EReal) (ix2 0 e) := by
  obtain ⟨-, -, e0, e1, -⟩ := blockIdxX t
  unfold iblk0
  rw [View.read_apply]
  show V c main_v3 (((cfg0.win 1).blk t).view.emb (ix2 0 e)) = V c main_v3 _
  refine congrArg _ ?_
  funext a; apply Fin.ext
  match a with
  | ⟨0, _⟩ => show win0_1.index t (0 : Fin 2) * 1 + 1 * 0 = 0; rw [e0]
  | ⟨1, _⟩ => show win0_1.index t (1 : Fin 2) * 24 + 1 * e.val = e.val; rw [e1]; omega

/-- The second weight row's block at any point is the row itself. -/
theorem weightBBlkX (c : Dev nD) (t : Fin cfg0.N) (e : Fin 24) :
    (iblk0 V c 2 t : Vec Ideal S1x24 .f32) (ix2 0 e) = (V c main_v4 : S1x24.Idx → EReal) (ix2 0 e) := by
  obtain ⟨-, -, -, -, e0, e1, -⟩ := blockIdxX t
  unfold iblk0
  rw [View.read_apply]
  show V c main_v4 (((cfg0.win 2).blk t).view.emb (ix2 0 e)) = V c main_v4 _
  refine congrArg _ ?_
  funext a; apply Fin.ext
  match a with
  | ⟨0, _⟩ => show win0_2.index t (0 : Fin 2) * 1 + 1 * 0 = 0; rw [e0]
  | ⟨1, _⟩ => show win0_2.index t (1 : Fin 2) * 24 + 1 * e.val = e.val; rw [e1]; omega

/-- What point `t` writes back is block `t` of the chain of the operand arrays. -/
theorem flushedX (c : Dev nD) (t : Fin cfg0.N) :
    (dat0 (F := Ideal) V c).flushed 3 t
      = ((cfg0.win 3).blk t).view.read (Elt Ideal) (FX 16384 (V c main_v0) (V c main_v3) (V c main_v4)) := by
  show (cfg0.win 3).cut (grid0.coords t) ((dat0 V c).after 3 t) = _
  rw [after0_3]
  unfold out0_3
  rw [View.canon_unit_zero zeroOffX]
  simp only [View.ld_unit_zero (S := S2048x288) zeroOffX, View.ld_unit_zero (S := S1x24) zeroOffX]
  rw [Pay.payX]
  funext y
  obtain ⟨p, j, rfl⟩ : ∃ (p : Fin 2048) (j : Fin 288), y = ix2 p j := ⟨y 0, y 1, eq_ix2 y⟩
  have ht : t.val < 8 := lt_of_lt_of_eq t.isLt N_0
  have h : 2048 * t.val + p.val < 16384 := by have := p.isLt; omega
  obtain ⟨-, -, -, -, -, -, e0, e1⟩ := blockIdxX t
  have hemb : ((cfg0.win 3).blk t).view.emb (ix2 p j) = (ix2 ⟨2048 * t.val + p.val, h⟩ j : S16384x288.Idx) := by
    funext a; apply Fin.ext
    match a with
    | ⟨0, _⟩ => show win0_3.index t (0 : Fin 2) * 2048 + 1 * p.val = 2048 * t.val + p.val; rw [e0]; omega
    | ⟨1, _⟩ => show win0_3.index t (1 : Fin 2) * 288 + 1 * j.val = j.val; rw [e1]; omega
  show FX 2048 (iblk0 V c 0 t) (iblk0 V c 1 t) (iblk0 V c 2 t) (ix2 p j)
    = FX 16384 (V c main_v0) (V c main_v3) (V c main_v4) (((cfg0.win 3).blk t).view.emb (ix2 p j))
  refine Eq.trans ?_ (congrArg (FX 16384 (V c main_v0) (V c main_v3) (V c main_v4)) hemb.symm)
  exact rowCongrX _ _ _ _ _ _ p ⟨2048 * t.val + p.val, h⟩ j (fun k => operandBlkX V c t p k h)
    (weightABlkX V c t) (weightBBlkX V c t)

/-- An index of the result array is in point `t`'s block iff each of its coordinates is in the block's range on its axis. -/
theorem memBlkX (t : Fin cfg0.N) (i : S16384x288.Idx) :
    i ∈ ((cfg0.win 3).blk t).view.set ↔ ∀ a : Fin 2, win0_3.index t a * S2048x288.size a ≤ (i a).val
      ∧ (i a).val < win0_3.index t a * S2048x288.size a + S2048x288.size a := by
  show i ∈ ((View.whole main_v9).slice (win0_3.rect t)).set ↔ _
  rw [View.set_slice_whole, Rect.mem_set_unit]
  exact Iff.rfl

/-- The eight blocks of 2048 rows tile the result array: row `r` is in the block of point `r / 2048`. -/
theorem coverX (i : S16384x288.Idx) :
    ∃ t : Fin cfg0.N, (cfg0.win 3).flush t = true ∧ i ∈ ((cfg0.win 3).blk t).view.set := by
  have hi0 : (i 0).val < 16384 := (i 0).isLt
  have hi1 : (i 1).val < 288 := (i 1).isLt
  obtain ⟨t, ht⟩ : ∃ t : Fin cfg0.N, t.val = (i 0).val / 2048 :=
    ⟨⟨(i 0).val / 2048, lt_of_lt_of_eq (by omega : (i 0).val / 2048 < 8) N_0.symm⟩, rfl⟩
  obtain ⟨-, -, -, -, -, -, e0, e1⟩ := blockIdxX t
  refine ⟨t, flush0_3 t, ?_⟩
  rw [memBlkX]
  intro a
  match a with
  | ⟨0, _⟩ =>
    show win0_3.index t (0 : Fin 2) * 2048 ≤ (i 0).val ∧ (i 0).val < win0_3.index t (0 : Fin 2) * 2048 + 2048
    rw [e0, ht]; omega
  | ⟨1, _⟩ =>
    show win0_3.index t (1 : Fin 2) * 288 ≤ (i 1).val ∧ (i 1).val < win0_3.index t (1 : Fin 2) * 288 + 288
    rw [e1]; omega

/-- After the first kernel's eight grid points its result array holds the first branch's chain of each row of its operand arrays as the
    region finds them: each point writes the chain of its own 2048 rows, and the eight blocks of rows tile the array. -/
theorem finalX (c : Dev nD) :
    (dat0 (F := Ideal) V c).arrAt 3 cfg0.N = FX 16384 (V c main_v0) (V c main_v3) (V c main_v4) :=
  (dat0 (F := Ideal) V c).arrAt_eq_of_cover 3 (FX 16384 (V c main_v0) (V c main_v3) (V c main_v4))
    (fun t _ => flushedX V c t) coverX

end Cert.KernelIdeal.Reg

end
-- ==== Proof.PayloadY.lean ====
/-
  The second kernel's body at the ideal values, read at an index.
-/
import proofs.«112269_j45191645889359_2_alg».proof.Proof.Gen.KernelIdeal.Skeleton
import proofs.«112269_j45191645889359_2_alg».proof.Proof.SpecArrays
import proofs.«112269_j45191645889359_2_alg».proof.Proof.LibRowGroups
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Norm Cert.RowGroups

/-- The shapes the by-group stage of a block of 2048 rows of 12 groups of 16 goes through. -/
theorem groupFactsY : GroupFacts 2048 12 16 192 where
  hK := rfl
  hE := by decide
  castG := shapeCasts_S2048x192_S2048x12x16
  castF := shapeCasts_S2048x12x16_S2048x192
  red := reduces_S2048x12x16_S2048x12
  keep := shapeCasts_S2048x12_S2048x12x1
  bc := broadcasts_S2048x12x1_S2048x12x16

/-- The shapes a by-row stage of a block of 2048 rows of 192 goes through. -/
theorem rowFactsY : RowFacts 2048 192 where
  red := reduces_S2048x192_S2048
  keep := shapeCasts_S2048_S2048x1
  bc := broadcasts_S2048x1_S2048x192

/-- The body's operations, in order, are three stages: by group without weight, then twice by row with a weight row. -/
theorem payY_stages (x0 : Vec Ideal S2048x192 .f32) (x1 x2 : Vec Ideal S1x192 .f32) :
    k1_pay1 (F := Ideal) x0 x1 x2
      = byRowW rowFactsY broadcasts_S1x192_S2048x192 c192 epsD
          (byRowW rowFactsY broadcasts_S1x192_S2048x192 c192 epsD
            (byGroup groupFactsY c16 eps3 (shapeCast S2048x192 x0 shapeCasts_S2048x192_S2048x192))
            (shapeCast S1x192 x1 shapeCasts_S1x192_S1x192))
          (shapeCast S1x192 x2 shapeCasts_S1x192_S1x192) := rfl

/-- What the second kernel's body stores, as a function of the three blocks it loads: the second branch's chain on each row of the block. -/
theorem payY (x0 : Vec Ideal S2048x192 .f32) (x1 x2 : Vec Ideal S1x192 .f32) :
    k1_pay1 (F := Ideal) x0 x1 x2 = FY 2048 x0 x1 x2 := by
  rw [payY_stages, shapeCast_self, shapeCast_self, shapeCast_self, byGroup_eq,
    byRowW_eq rowFactsY _ (G := 12) (E := 16) rfl (by decide), byRowW_eq rowFactsY _ (G := 12) (E := 16) rfl (by decide)]
  funext i
  obtain ⟨p, j, rfl⟩ : ∃ (p : Fin 2048) (j : Fin 192), i = ix2 p j := ⟨i 0, i 1, eq_ix2 i⟩
  rw [ofRows_apply, rowOf_ofRows, rowOf_ofRows, FY_apply]
  rfl

end Cert.KernelIdeal.Pay

end
-- ==== Proof.RegionY.lean ====
/-
  The second kernel's result array after its grid, as one function of its operand arrays.
-/
import proofs.«112269_j45191645889359_2_alg».proof.Proof.Gen.KernelIdeal.Frame
import proofs.«112269_j45191645889359_2_alg».proof.Proof.PayloadY
import Idealize.ShloMosaic.Lib.Pipeline.Value
import Idealize.ShloMosaic.Lib.Tactic

set_option maxRecDepth 16384

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen Cert.Norm

variable (V : (c : Dev nD) → (b : Ref sig .tc) → Buf (Elt Ideal) ((c : Thread nD τ).loc b))

/-- The chain of a row depends only on that row and on the two weight rows: a block whose row `p` is row `r` of an array, with the
    same weight rows, has at row `p` the chain the array has at row `r`. -/
theorem rowCongrY {R R' : ℕ} (x : (⟨2, ![R, 192]⟩ : Shape).Idx → EReal) (x' : (⟨2, ![R', 192]⟩ : Shape).Idx → EReal)
    (wa wb wa' wb' : (⟨2, ![1, 192]⟩ : Shape).Idx → EReal) (p : Fin R) (r : Fin R') (j : Fin 192)
    (hx : ∀ k : Fin 192, x (ix2 p k) = x' (ix2 r k)) (ha : ∀ k : Fin 192, wa (ix2 0 k) = wa' (ix2 0 k))
    (hb : ∀ k : Fin 192, wb (ix2 0 k) = wb' (ix2 0 k)) :
    FY R x wa wb (ix2 p j) = FY R' x' wa' wb' (ix2 r j) := by
  rw [FY_apply, FY_apply]
  have e0 : (fun (g : Fin 12) (e : Fin 16) => x (ix2 p (flat 192 (G := 12) (E := 16) rfl g e)))
      = fun g e => x' (ix2 r (flat 192 (G := 12) (E := 16) rfl g e)) := funext fun g => funext fun e => hx _
  have e1 : (fun (g : Fin 12) (e : Fin 16) => wa (ix2 0 (flat 192 (G := 12) (E := 16) rfl g e)))
      = fun g e => wa' (ix2 0 (flat 192 (G := 12) (E := 16) rfl g e)) := funext fun g => funext fun e => ha _
  have e2 : (fun (g : Fin 12) (e : Fin 16) => wb (ix2 0 (flat 192 (G := 12) (E := 16) rfl g e)))
      = fun g e => wb' (ix2 0 (flat 192 (G := 12) (E := 16) rfl g e)) := funext fun g => funext fun e => hb _
  rw [e0, e1, e2]

/-- The zero offset, as the constant function. -/
theorem zeroOffY : (![0, 0] : Fin 2 → Nat) = fun _ => 0 := funext fun a => by fin_cases a <;> rfl

/-- The block index of each window at each of the eight points: the operand's and the result's blocks are block `t` of rows and the one
    block of columns; the two weight rows are always the whole row. -/
theorem blockIdxY : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the operand's block at point `t` is row `2048 t + p` of the operand. -/
theorem operandBlkY (c : Dev nD) (t : Fin cfg1.N) (p : Fin 2048) (j : Fin 192) (h : 2048 * t.val + p.val < 16384) :
    (iblk1 V c 0 t : Vec Ideal S2048x192 .f32) (ix2 p j) = (V c main_v1 : S16384x192.Idx → EReal) (ix2 ⟨2048 * t.val + p.val, h⟩ j) := by
  obtain ⟨e0, e1, -⟩ := blockIdxY t
  unfold iblk1
  rw [View.read_apply]
  show V c main_v1 (((cfg1.win 0).blk t).view.emb (ix2 p j)) = V c main_v1 _
  refine congrArg _ ?_
  funext a; apply Fin.ext
  match a with
  | ⟨0, _⟩ => show win1_0.index t (0 : Fin 2) * 2048 + 1 * p.val = 2048 * t.val + p.val; rw [e0]; omega
  | ⟨1, _⟩ => show win1_0.index t (1 : Fin 2) * 192 + 1 * j.val = j.val; rw [e1]; omega

/-- The first weight row's block at any point is the row itself. -/
theorem weightABlkY (c : Dev nD) (t : Fin cfg1.N) (k : Fin 192) :
    (iblk1 V c 1 t : Vec Ideal S1x192 .f32) (ix2 0 k) = (V c main_v7 : S1x192.Idx → EReal) (ix2 0 k) := by
  obtain ⟨-, -, e0, e1, -⟩ := blockIdxY t
  unfold iblk1
  rw [View.read_apply]
  show V c main_v7 (((cfg1.win 1).blk t).view.emb (ix2 0 k)) = V c main_v7 _
  refine congrArg _ ?_
  funext a; apply Fin.ext
  match a with
  | ⟨0, _⟩ => show win1_1.index t (0 : Fin 2) * 1 + 1 * 0 = 0; rw [e0]
  | ⟨1, _⟩ => show win1_1.index t (1 : Fin 2) * 192 + 1 * k.val = k.val; rw [e1]; omega

/-- The second weight row's block at any point is the row itself. -/
theorem weightBBlkY (c : Dev nD) (t : Fin cfg1.N) (k : Fin 192) :
    (iblk1 V c 2 t : Vec Ideal S1x192 .f32) (ix2 0 k) = (V c main_v8 : S1x192.Idx → EReal) (ix2 0 k) := by
  obtain ⟨-, -, -, -, e0, e1, -⟩ := blockIdxY t
  unfold iblk1
  rw [View.read_apply]
  show V c main_v8 (((cfg1.win 2).blk t).view.emb (ix2 0 k)) = V c main_v8 _
  refine congrArg _ ?_
  funext a; apply Fin.ext
  match a with
  | ⟨0, _⟩ => show win1_2.index t (0 : Fin 2) * 1 + 1 * 0 = 0; rw [e0]
  | ⟨1, _⟩ => show win1_2.index t (1 : Fin 2) * 192 + 1 * k.val = k.val; rw [e1]; omega

/-- What point `t` writes back is block `t` of the chain of the operand arrays. -/
theorem flushedY (c : Dev nD) (t : Fin cfg1.N) :
    (dat1 (F := Ideal) V c).flushed 3 t
      = ((cfg1.win 3).blk t).view.read (Elt Ideal) (FY 16384 (V c main_v1) (V c main_v7) (V c main_v8)) := by
  show (cfg1.win 3).cut (grid1.coords t) ((dat1 V c).after 3 t) = _
  rw [after1_3]
  unfold out1_3
  rw [View.canon_unit_zero zeroOffY]
  simp only [View.ld_unit_zero (S := S2048x192) zeroOffY, View.ld_unit_zero (S := S1x192) zeroOffY]
  rw [Pay.payY]
  funext y
  obtain ⟨p, j, rfl⟩ : ∃ (p : Fin 2048) (j : Fin 192), y = ix2 p j := ⟨y 0, y 1, eq_ix2 y⟩
  have ht : t.val < 8 := lt_of_lt_of_eq t.isLt N_1
  have h : 2048 * t.val + p.val < 16384 := by have := p.isLt; omega
  obtain ⟨-, -, -, -, -, -, e0, e1⟩ := blockIdxY t
  have hemb : ((cfg1.win 3).blk t).view.emb (ix2 p j) = (ix2 ⟨2048 * t.val + p.val, h⟩ j : S16384x192.Idx) := by
    funext a; apply Fin.ext
    match a with
    | ⟨0, _⟩ => show win1_3.index t (0 : Fin 2) * 2048 + 1 * p.val = 2048 * t.val + p.val; rw [e0]; omega
    | ⟨1, _⟩ => show win1_3.index t (1 : Fin 2) * 192 + 1 * j.val = j.val; rw [e1]; omega
  show FY 2048 (iblk1 V c 0 t) (iblk1 V c 1 t) (iblk1 V c 2 t) (ix2 p j)
    = FY 16384 (V c main_v1) (V c main_v7) (V c main_v8) (((cfg1.win 3).blk t).view.emb (ix2 p j))
  refine Eq.trans ?_ (congrArg (FY 16384 (V c main_v1) (V c main_v7) (V c main_v8)) hemb.symm)
  exact rowCongrY _ _ _ _ _ _ p ⟨2048 * t.val + p.val, h⟩ j (fun k => operandBlkY V c t p k h)
    (weightABlkY V c t) (weightBBlkY V c t)

/-- An index of the result array is in point `t`'s block iff each of its coordinates is in the block's range on its axis. -/
theorem memBlkY (t : Fin cfg1.N) (i : S16384x192.Idx) :
    i ∈ ((cfg1.win 3).blk t).view.set ↔ ∀ a : Fin 2, win1_3.index t a * S2048x192.size a ≤ (i a).val
      ∧ (i a).val < win1_3.index t a * S2048x192.size a + S2048x192.size a := by
  show i ∈ ((View.whole main_v10).slice (win1_3.rect t)).set ↔ _
  rw [View.set_slice_whole, Rect.mem_set_unit]
  exact Iff.rfl

/-- The eight blocks of 2048 rows tile the result array: row `r` is in the block of point `r / 2048`. -/
theorem coverY (i : S16384x192.Idx) :
    ∃ t : Fin cfg1.N, (cfg1.win 3).flush t = true ∧ i ∈ ((cfg1.win 3).blk t).view.set := by
  have hi0 : (i 0).val < 16384 := (i 0).isLt
  have hi1 : (i 1).val < 192 := (i 1).isLt
  obtain ⟨t, ht⟩ : ∃ t : Fin cfg1.N, t.val = (i 0).val / 2048 :=
    ⟨⟨(i 0).val / 2048, lt_of_lt_of_eq (by omega : (i 0).val / 2048 < 8) N_1.symm⟩, rfl⟩
  obtain ⟨-, -, -, -, -, -, e0, e1⟩ := blockIdxY t
  refine ⟨t, flush1_3 t, ?_⟩
  rw [memBlkY]
  intro a
  match a with
  | ⟨0, _⟩ =>
    show win1_3.index t (0 : Fin 2) * 2048 ≤ (i 0).val ∧ (i 0).val < win1_3.index t (0 : Fin 2) * 2048 + 2048
    rw [e0, ht]; omega
  | ⟨1, _⟩ =>
    show win1_3.index t (1 : Fin 2) * 192 ≤ (i 1).val ∧ (i 1).val < win1_3.index t (1 : Fin 2) * 192 + 192
    rw [e1]; omega

/-- After the second kernel's eight grid points its result array holds the second branch's chain of each row of its operand arrays as the
    region finds them: each point writes the chain of its own 2048 rows, and the eight blocks of rows tile the array. -/
theorem finalY (c : Dev nD) :
    (dat1 (F := Ideal) V c).arrAt 3 cfg1.N = FY 16384 (V c main_v1) (V c main_v7) (V c main_v8) :=
  (dat1 (F := Ideal) V c).arrAt_eq_of_cover 3 (FY 16384 (V c main_v1) (V c main_v7) (V c main_v8))
    (fun t _ => flushedY V c t) coverY

end Cert.KernelIdeal.Reg

end
-- ==== Proof.PayloadZ.lean ====
/-
  The third kernel's body at the ideal values, read at an index.
-/
import proofs.«112269_j45191645889359_2_alg».proof.Proof.Gen.KernelIdeal.Skeleton
import proofs.«112269_j45191645889359_2_alg».proof.Proof.SpecArrays
import proofs.«112269_j45191645889359_2_alg».proof.Proof.LibRowGroups
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Norm Cert.RowGroups

/-- The third kernel's block is 512 rows of 4608 = 192 × 24 entries. -/
theorem groupsZ : GroupFacts 512 192 24 4608 :=
  ⟨rfl, by decide, shapeCasts_S512x4608_S512x192x24, shapeCasts_S512x192x24_S512x4608, reduces_S512x192x24_S512x192,
    shapeCasts_S512x192_S512x192x1, broadcasts_S512x192x1_S512x192x24⟩

/-- Its weights are rows of 24, one entry per place in a group. -/
theorem placesZ : PlaceFacts 512 192 24 := ⟨shapeCasts_S1x24_S1x1x24, broadcasts_S1x1x24_S512x192x24⟩

/-- Its row sums run over the 4608 entries of a row. -/
theorem rowsZ : RowFacts 512 4608 := ⟨reduces_S512x4608_S512, shapeCasts_S512_S512x1, broadcasts_S512x1_S512x4608⟩

/-- The body is three stages on the flat view: by group with the first weight, by row, by group with the second weight. -/
theorem payZ_stages (x0 : Vec Ideal S512x4608 .f32) (x1 x2 : Vec Ideal S1x24 .f32) :
    k2_pay1 (F := Ideal) (k2_pay2 x0 x1) (k2_pay3 x2)
      = byGroupW groupsZ placesZ c24 epsD (byRow rowsZ c4608 eps2 (byGroupW groupsZ placesZ c24 epsD x0 x1)) x2 := by
  unfold k2_pay1 k2_pay2 k2_pay3
  simp only [shapeCast_self]
  rfl

/-- What the third kernel's body stores, as a function of the three blocks it loads: the third branch's chain on each row of the block. -/
theorem payZ (x0 : Vec Ideal S512x4608 .f32) (x1 x2 : Vec Ideal S1x24 .f32) :
    k2_pay1 (F := Ideal) (k2_pay2 x0 x1) (k2_pay3 x2) = FZ 512 x0 x1 x2 := by
  rw [payZ_stages, byGroupW_eq, byRow_eq rowsZ groupsZ.hK groupsZ.hE, byGroupW_eq]
  funext i
  simp only [rowOf_ofRows]
  rfl

end Cert.KernelIdeal.Pay

end
-- ==== Proof.RegionZ.lean ====
/-
  The third kernel's result array after its grid, as one function of its operand arrays.
-/
import proofs.«112269_j45191645889359_2_alg».proof.Proof.Gen.KernelIdeal.Frame
import proofs.«112269_j45191645889359_2_alg».proof.Proof.PayloadZ
import Idealize.ShloMosaic.Lib.Pipeline.Value
import Idealize.ShloMosaic.Lib.Tactic

set_option maxRecDepth 16384

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen Cert.Norm

variable (V : (c : Dev nD) → (b : Ref sig .tc) → Buf (Elt Ideal) ((c : Thread nD τ).loc b))

/-- The chain of a row depends only on that row and on the two weight rows: a block whose row `p` is row `r` of an array, with the
    same weight rows, has at row `p` the chain the array has at row `r`. -/
theorem rowCongrZ {R R' : ℕ} (x : (⟨2, ![R, 4608]⟩ : Shape).Idx → EReal) (x' : (⟨2, ![R', 4608]⟩ : Shape).Idx → EReal)
    (wa wb wa' wb' : (⟨2, ![1, 24]⟩ : Shape).Idx → EReal) (p : Fin R) (r : Fin R') (j : Fin 4608)
    (hx : ∀ k : Fin 4608, x (ix2 p k) = x' (ix2 r k)) (ha : ∀ e : Fin 24, wa (ix2 0 e) = wa' (ix2 0 e))
    (hb : ∀ e : Fin 24, wb (ix2 0 e) = wb' (ix2 0 e)) :
    FZ R x wa wb (ix2 p j) = FZ R' x' wa' wb' (ix2 r j) := by
  rw [FZ_apply, FZ_apply]
  have e0 : (fun (q : Fin 192) (e : Fin 24) => x (ix2 p (flat 4608 (G := 192) (E := 24) rfl q e)))
      = fun q e => x' (ix2 r (flat 4608 (G := 192) (E := 24) rfl q e)) := funext fun q => funext fun e => hx _
  have e1 : (fun e : Fin 24 => wa (ix2 0 e)) = fun e => wa' (ix2 0 e) := funext ha
  have e2 : (fun e : Fin 24 => wb (ix2 0 e)) = fun e => wb' (ix2 0 e) := funext hb
  rw [e0, e1, e2]

/-- The zero offset, as the constant function. -/
theorem zeroOffZ : (![0, 0] : Fin 2 → Nat) = fun _ => 0 := funext fun a => by fin_cases a <;> rfl

/-- The block index of each window at each of the thirty-two points: the operand's and the result's blocks are block `t` of rows and
    the one block of columns; the two weight rows are always the whole row. -/
theorem blockIdxZ : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the operand's block at point `t` is row `512 t + p` of the operand. -/
theorem operandBlkZ (c : Dev nD) (t : Fin cfg2.N) (p : Fin 512) (j : Fin 4608) (h : 512 * t.val + p.val < 16384) :
    (iblk2 V c 0 t : Vec Ideal S512x4608 .f32) (ix2 p j) = (V c main_v2 : S16384x4608.Idx → EReal) (ix2 ⟨512 * t.val + p.val, h⟩ j) := by
  obtain ⟨e0, e1, -⟩ := blockIdxZ t
  unfold iblk2
  rw [View.read_apply]
  show V c main_v2 (((cfg2.win 0).blk t).view.emb (ix2 p j)) = V c main_v2 _
  refine congrArg _ ?_
  funext a; apply Fin.ext
  match a with
  | ⟨0, _⟩ => show win2_0.index t (0 : Fin 2) * 512 + 1 * p.val = 512 * t.val + p.val; rw [e0]; omega
  | ⟨1, _⟩ => show win2_0.index t (1 : Fin 2) * 4608 + 1 * j.val = j.val; rw [e1]; omega

/-- The first weight row's block at any point is the row itself. -/
theorem weightABlkZ (c : Dev nD) (t : Fin cfg2.N) (e : Fin 24) :
    (iblk2 V c 1 t : Vec Ideal S1x24 .f32) (ix2 0 e) = (V c main_v5 : S1x24.Idx → EReal) (ix2 0 e) := by
  obtain ⟨-, -, e0, e1, -⟩ := blockIdxZ t
  unfold iblk2
  rw [View.read_apply]
  show V c main_v5 (((cfg2.win 1).blk t).view.emb (ix2 0 e)) = V c main_v5 _
  refine congrArg _ ?_
  funext a; apply Fin.ext
  match a with
  | ⟨0, _⟩ => show win2_1.index t (0 : Fin 2) * 1 + 1 * 0 = 0; rw [e0]
  | ⟨1, _⟩ => show win2_1.index t (1 : Fin 2) * 24 + 1 * e.val = e.val; rw [e1]; omega

/-- The second weight row's block at any point is the row itself. -/
theorem weightBBlkZ (c : Dev nD) (t : Fin cfg2.N) (e : Fin 24) :
    (iblk2 V c 2 t : Vec Ideal S1x24 .f32) (ix2 0 e) = (V c main_v6 : S1x24.Idx → EReal) (ix2 0 e) := by
  obtain ⟨-, -, -, -, e0, e1, -⟩ := blockIdxZ t
  unfold iblk2
  rw [View.read_apply]
  show V c main_v6 (((cfg2.win 2).blk t).view.emb (ix2 0 e)) = V c main_v6 _
  refine congrArg _ ?_
  funext a; apply Fin.ext
  match a with
  | ⟨0, _⟩ => show win2_2.index t (0 : Fin 2) * 1 + 1 * 0 = 0; rw [e0]
  | ⟨1, _⟩ => show win2_2.index t (1 : Fin 2) * 24 + 1 * e.val = e.val; rw [e1]; omega

/-- What point `t` writes back is block `t` of the chain of the operand arrays. -/
theorem flushedZ (c : Dev nD) (t : Fin cfg2.N) :
    (dat2 (F := Ideal) V c).flushed 3 t
      = ((cfg2.win 3).blk t).view.read (Elt Ideal) (FZ 16384 (V c main_v2) (V c main_v5) (V c main_v6)) := by
  show (cfg2.win 3).cut (grid2.coords t) ((dat2 V c).after 3 t) = _
  rw [after2_3]
  unfold out2_3
  rw [View.canon_unit_zero zeroOffZ]
  simp only [View.ld_unit_zero (S := S512x4608) zeroOffZ, View.ld_unit_zero (S := S1x24) zeroOffZ]
  rw [Pay.payZ]
  funext y
  obtain ⟨p, j, rfl⟩ : ∃ (p : Fin 512) (j : Fin 4608), y = ix2 p j := ⟨y 0, y 1, eq_ix2 y⟩
  have ht : t.val < 32 := lt_of_lt_of_eq t.isLt N_2
  have h : 512 * t.val + p.val < 16384 := by have := p.isLt; omega
  obtain ⟨-, -, -, -, -, -, e0, e1⟩ := blockIdxZ t
  have hemb : ((cfg2.win 3).blk t).view.emb (ix2 p j) = (ix2 ⟨512 * t.val + p.val, h⟩ j : S16384x4608.Idx) := by
    funext a; apply Fin.ext
    match a with
    | ⟨0, _⟩ => show win2_3.index t (0 : Fin 2) * 512 + 1 * p.val = 512 * t.val + p.val; rw [e0]; omega
    | ⟨1, _⟩ => show win2_3.index t (1 : Fin 2) * 4608 + 1 * j.val = j.val; rw [e1]; omega
  show FZ 512 (iblk2 V c 0 t) (iblk2 V c 1 t) (iblk2 V c 2 t) (ix2 p j)
    = FZ 16384 (V c main_v2) (V c main_v5) (V c main_v6) (((cfg2.win 3).blk t).view.emb (ix2 p j))
  refine Eq.trans ?_ (congrArg (FZ 16384 (V c main_v2) (V c main_v5) (V c main_v6)) hemb.symm)
  exact rowCongrZ _ _ _ _ _ _ p ⟨512 * t.val + p.val, h⟩ j (fun k => operandBlkZ V c t p k h)
    (weightABlkZ V c t) (weightBBlkZ V c t)

/-- An index of the result array is in point `t`'s block iff each of its coordinates is in the block's range on its axis. -/
theorem memBlkZ (t : Fin cfg2.N) (i : S16384x4608.Idx) :
    i ∈ ((cfg2.win 3).blk t).view.set ↔ ∀ a : Fin 2, win2_3.index t a * S512x4608.size a ≤ (i a).val
      ∧ (i a).val < win2_3.index t a * S512x4608.size a + S512x4608.size a := by
  show i ∈ ((View.whole main_v11).slice (win2_3.rect t)).set ↔ _
  rw [View.set_slice_whole, Rect.mem_set_unit]
  exact Iff.rfl

/-- The thirty-two blocks of 512 rows tile the result array: row `r` is in the block of point `r / 512`. -/
theorem coverZ (i : S16384x4608.Idx) :
    ∃ t : Fin cfg2.N, (cfg2.win 3).flush t = true ∧ i ∈ ((cfg2.win 3).blk t).view.set := by
  have hi0 : (i 0).val < 16384 := (i 0).isLt
  have hi1 : (i 1).val < 4608 := (i 1).isLt
  obtain ⟨t, ht⟩ : ∃ t : Fin cfg2.N, t.val = (i 0).val / 512 :=
    ⟨⟨(i 0).val / 512, lt_of_lt_of_eq (by omega : (i 0).val / 512 < 32) N_2.symm⟩, rfl⟩
  obtain ⟨-, -, -, -, -, -, e0, e1⟩ := blockIdxZ t
  refine ⟨t, flush2_3 t, ?_⟩
  rw [memBlkZ]
  intro a
  match a with
  | ⟨0, _⟩ =>
    show win2_3.index t (0 : Fin 2) * 512 ≤ (i 0).val ∧ (i 0).val < win2_3.index t (0 : Fin 2) * 512 + 512
    rw [e0, ht]; omega
  | ⟨1, _⟩ =>
    show win2_3.index t (1 : Fin 2) * 4608 ≤ (i 1).val ∧ (i 1).val < win2_3.index t (1 : Fin 2) * 4608 + 4608
    rw [e1]; omega

/-- After the third kernel's thirty-two grid points its result array holds the third branch's chain of each row of its operand arrays as
    the region finds them: each point writes the chain of its own 512 rows, and the thirty-two blocks of rows tile the array. -/
theorem finalZ (c : Dev nD) :
    (dat2 (F := Ideal) V c).arrAt 3 cfg2.N = FZ 16384 (V c main_v2) (V c main_v5) (V c main_v6) :=
  (dat2 (F := Ideal) V c).arrAt_eq_of_cover 3 (FZ 16384 (V c main_v2) (V c main_v5) (V c main_v6))
    (fun t _ => flushedZ V c t) coverZ

end Cert.KernelIdeal.Reg

end
-- ==== Proof.KernelWalk.lean ====
/-
  The kernel program's three results as functions of its arguments.

  The last fold of the run, read at a result buffer, is the reshape of a kernel's result array; no later kernel and no
  other reshape writes that array, so it holds what its own kernel's write-backs left: the branch's chain on each row of the
  kernel's operand arrays as that kernel found them; and those operand arrays are reshapes of the arguments, written by the
  first stretch and by nothing after it. So each result is the chain on the flat views of its arguments, viewed back in
  the argument's shape.
-/
import proofs.«112269_j45191645889359_2_alg».proof.Proof.Gen.KernelIdeal.Frame
import proofs.«112269_j45191645889359_2_alg».proof.Proof.RegionX
import proofs.«112269_j45191645889359_2_alg».proof.Proof.RegionY
import proofs.«112269_j45191645889359_2_alg».proof.Proof.RegionZ
import Idealize.ShloMosaic.Lib.StableHlo.Run

set_option maxRecDepth 16384

noncomputable section

namespace Cert.KernelIdeal.Walk

open Cert.KernelIdeal Cert.KernelIdeal.Gen Cert.Norm
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first stretch leaves: the arguments' flat views -/

theorem W1_v0 (c : Dev nD) : W1 m ρ c (Proc.devRef .tc main_v0)
    = shapeCast S16384x288 (m ((c : Thread nD τ).loc main_arg0)) shapeCasts_S32x512x12x24_S16384x288 := by
  show StableHlo.after hostOps0 (W0 m ρ c) (Proc.devRef .tc main_v0) = _
  after_results; rfl

theorem W1_v1 (c : Dev nD) : W1 m ρ c (Proc.devRef .tc main_v1)
    = shapeCast S16384x192 (m ((c : Thread nD τ).loc main_arg1)) shapeCasts_S32x512x12x16_S16384x192 := by
  show StableHlo.after hostOps0 (W0 m ρ c) (Proc.devRef .tc main_v1) = _
  after_results; rfl

theorem W1_v2 (c : Dev nD) : W1 m ρ c (Proc.devRef .tc main_v2)
    = shapeCast S16384x4608 (m ((c : Thread nD τ).loc main_arg2)) shapeCasts_S32x512x12x16x24_S16384x4608 := by
  show StableHlo.after hostOps0 (W0 m ρ c) (Proc.devRef .tc main_v2) = _
  after_results; rfl

theorem W1_v3 (c : Dev nD) : W1 m ρ c (Proc.devRef .tc main_v3)
    = shapeCast S1x24 (m ((c : Thread nD τ).loc main_arg3)) shapeCasts_S24_S1x24 := by
  show StableHlo.after hostOps0 (W0 m ρ c) (Proc.devRef .tc main_v3) = _
  after_results; rfl

theorem W1_v4 (c : Dev nD) : W1 m ρ c (Proc.devRef .tc main_v4)
    = shapeCast S1x24 (m ((c : Thread nD τ).loc main_arg6)) shapeCasts_S24_S1x24 := by
  show StableHlo.after hostOps0 (W0 m ρ c) (Proc.devRef .tc main_v4) = _
  after_results; rfl

theorem W1_v5 (c : Dev nD) : W1 m ρ c (Proc.devRef .tc main_v5)
    = shapeCast S1x24 (m ((c : Thread nD τ).loc main_arg5)) shapeCasts_S24_S1x24 := by
  show StableHlo.after hostOps0 (W0 m ρ c) (Proc.devRef .tc main_v5) = _
  after_results; rfl

theorem W1_v6 (c : Dev nD) : W1 m ρ c (Proc.devRef .tc main_v6)
    = shapeCast S1x24 (m ((c : Thread nD τ).loc main_arg8)) shapeCasts_S24_S1x24 := by
  show StableHlo.after hostOps0 (W0 m ρ c) (Proc.devRef .tc main_v6) = _
  after_results; rfl

theorem W1_v7 (c : Dev nD) : W1 m ρ c (Proc.devRef .tc main_v7)
    = shapeCast S1x192 (m ((c : Thread nD τ).loc main_arg4)) shapeCasts_S12x16_S1x192 := by
  show StableHlo.after hostOps0 (W0 m ρ c) (Proc.devRef .tc main_v7) = _
  after_results; rfl

theorem W1_v8 (c : Dev nD) : W1 m ρ c (Proc.devRef .tc main_v8)
    = shapeCast S1x192 (m ((c : Thread nD τ).loc main_arg7)) shapeCasts_S12x16_S1x192 := by
  show StableHlo.after hostOps0 (W0 m ρ c) (Proc.devRef .tc main_v8) = _
  after_results; rfl

/-! ## The three results -/

/-- The first result: the first kernel's result array, which the later kernels leave alone, viewed in the argument's shape. -/
theorem result_x (c : Dev nD) : W5 m ρ c (Proc.devRef .tc main_v12)
    = shapeCast S32x512x12x24
        (FX 16384 (shapeCast S16384x288 (m ((c : Thread nD τ).loc main_arg0)) shapeCasts_S32x512x12x24_S16384x288)
          (shapeCast S1x24 (m ((c : Thread nD τ).loc main_arg3)) shapeCasts_S24_S1x24)
          (shapeCast S1x24 (m ((c : Thread nD τ).loc main_arg6)) shapeCasts_S24_S1x24))
        shapeCasts_S16384x288_S32x512x12x24 := by
  have e5 : W5 m ρ c (Proc.devRef .tc main_v12)
      = shapeCast S32x512x12x24 (W4 m ρ c (Proc.devRef .tc main_v9)) shapeCasts_S16384x288_S32x512x12x24 := by
    show StableHlo.after hostOps3 (W4 m ρ c) (Proc.devRef .tc main_v12) = _
    after_results; rfl
  have e2 : W2 m ρ c (Proc.devRef .tc main_v9) = (dat0 (V1 m ρ) c).arrAt 3 cfg0.N := W2_arr m ρ c 3
  rw [e5, W4_of_ne m ρ c main_v9 (by decide), W3_of_ne m ρ c main_v9 (by decide), e2, Reg.finalX (V1 m ρ) c]
  show shapeCast S32x512x12x24 (FX 16384 (W1 m ρ c (Proc.devRef .tc main_v0)) (W1 m ρ c (Proc.devRef .tc main_v3)) (W1 m ρ c (Proc.devRef .tc main_v4))) _ = _
  rw [W1_v0, W1_v3, W1_v4]

/-- The second result likewise: the second kernel's operands are still what the first stretch left. -/
theorem result_y (c : Dev nD) : W5 m ρ c (Proc.devRef .tc main_v13)
    = shapeCast S32x512x12x16
        (FY 16384 (shapeCast S16384x192 (m ((c : Thread nD τ).loc main_arg1)) shapeCasts_S32x512x12x16_S16384x192)
          (shapeCast S1x192 (m ((c : Thread nD τ).loc main_arg4)) shapeCasts_S12x16_S1x192)
          (shapeCast S1x192 (m ((c : Thread nD τ).loc main_arg7)) shapeCasts_S12x16_S1x192))
        shapeCasts_S16384x192_S32x512x12x16 := by
  have e5 : W5 m ρ c (Proc.devRef .tc main_v13)
      = shapeCast S32x512x12x16 (W4 m ρ c (Proc.devRef .tc main_v10)) shapeCasts_S16384x192_S32x512x12x16 := by
    show StableHlo.after hostOps3 (W4 m ρ c) (Proc.devRef .tc main_v13) = _
    after_results; rfl
  have e3 : W3 m ρ c (Proc.devRef .tc main_v10) = (dat1 (V2 m ρ) c).arrAt 3 cfg1.N := W3_arr m ρ c 3
  rw [e5, W4_of_ne m ρ c main_v10 (by decide), e3, Reg.finalY (V2 m ρ) c]
  show shapeCast S32x512x12x16 (FY 16384 (W2 m ρ c (Proc.devRef .tc main_v1)) (W2 m ρ c (Proc.devRef .tc main_v7)) (W2 m ρ c (Proc.devRef .tc main_v8))) _ = _
  rw [W2_of_ne m ρ c main_v1 (by decide), W2_of_ne m ρ c main_v7 (by decide), W2_of_ne m ρ c main_v8 (by decide),
    W1_v1, W1_v7, W1_v8]

/-- The third result likewise. -/
theorem result_z (c : Dev nD) : W5 m ρ c (Proc.devRef .tc main_v14)
    = shapeCast S32x512x12x16x24
        (FZ 16384 (shapeCast S16384x4608 (m ((c : Thread nD τ).loc main_arg2)) shapeCasts_S32x512x12x16x24_S16384x4608)
          (shapeCast S1x24 (m ((c : Thread nD τ).loc main_arg5)) shapeCasts_S24_S1x24)
          (shapeCast S1x24 (m ((c : Thread nD τ).loc main_arg8)) shapeCasts_S24_S1x24))
        shapeCasts_S16384x4608_S32x512x12x16x24 := by
  have e5 : W5 m ρ c (Proc.devRef .tc main_v14)
      = shapeCast S32x512x12x16x24 (W4 m ρ c (Proc.devRef .tc main_v11)) shapeCasts_S16384x4608_S32x512x12x16x24 := by
    show StableHlo.after hostOps3 (W4 m ρ c) (Proc.devRef .tc main_v14) = _
    after_results; rfl
  have e4 : W4 m ρ c (Proc.devRef .tc main_v11) = (dat2 (V3 m ρ) c).arrAt 3 cfg2.N := W4_arr m ρ c 3
  rw [e5, e4, Reg.finalZ (V3 m ρ) c]
  show shapeCast S32x512x12x16x24 (FZ 16384 (W3 m ρ c (Proc.devRef .tc main_v2)) (W3 m ρ c (Proc.devRef .tc main_v5)) (W3 m ρ c (Proc.devRef .tc main_v6))) _ = _
  rw [W3_of_ne m ρ c main_v2 (by decide), W3_of_ne m ρ c main_v5 (by decide), W3_of_ne m ρ c main_v6 (by decide),
    W2_of_ne m ρ c main_v2 (by decide), W2_of_ne m ρ c main_v5 (by decide), W2_of_ne m ρ c main_v6 (by decide),
    W1_v2, W1_v5, W1_v6]

end Cert.KernelIdeal.Walk

end
-- ==== Proof.Reshape.lean ====
/-
  The flat view and the arguments' own shapes are one array in row-major order.

  Row (b, s) of a [32, 512, …] argument is row 512·b + s of its [16384, K] view, and entry `j` of that row is the
  argument's entry whose trailing coordinates are the row-major digits of `j`. So a chain computed row by row on the flat
  view of the arguments (with the weights passed as one-row arrays) and viewed back in the argument's shape is the chain
  computed row by row on the argument itself.
-/
import proofs.«112269_j45191645889359_2_alg».proof.Proof.SpecArrays
import Idealize.ShloMosaic.Lib.Pipeline.Value

noncomputable section

namespace Cert.Norm

open Idealize.ShloMosaic Idealize.ShloMosaic.ValueIdx

/-- The flat view's row of the argument's row (b, s). -/
def rowOf (b : Fin 32) (s : Fin 512) : Fin 16384 := ⟨512 * b.val + s.val, by have := b.isLt; have := s.isLt; omega⟩

@[simp] theorem rowOf_val (b : Fin 32) (s : Fin 512) : (rowOf b s).val = 512 * b.val + s.val := rfl

/-- A [24] weight viewed as a [1, 24] row. -/
theorem row24_apply (w : (⟨1, ![24]⟩ : Shape).Idx → EReal) (h : (⟨1, ![24]⟩ : Shape).ShapeCasts ⟨2, ![1, 24]⟩) (e : Fin 24) :
    shapeCast ⟨2, ![1, 24]⟩ w h (ix2 0 e) = w (ix1 e) :=
  shapeCast_apply w h (ix2 0 e) (ix1 e) (by
    rw [Shape.rowMajor_val_one, Shape.rowMajor_val_two]
    show e.val = (0 : Fin 1).val * 24 + e.val
    simp)

/-- A [12, 16] weight viewed as a [1, 192] row. -/
theorem row192_apply (w : (⟨2, ![12, 16]⟩ : Shape).Idx → EReal) (h : (⟨2, ![12, 16]⟩ : Shape).ShapeCasts ⟨2, ![1, 192]⟩)
    (g : Fin 12) (e : Fin 16) :
    shapeCast ⟨2, ![1, 192]⟩ w h (ix2 0 (flat 192 (G := 12) (E := 16) rfl g e)) = w (ix2 g e) :=
  shapeCast_apply w h (ix2 0 (flat 192 (G := 12) (E := 16) rfl g e)) (ix2 g e) (by
    rw [Shape.rowMajor_val_two, Shape.rowMajor_val_two]
    show g.val * 16 + e.val = (0 : Fin 1).val * 192 + (flat 192 (G := 12) (E := 16) rfl g e).val
    simp only [flat_val]; simp; omega)

/-- The first argument's flat view at row (b, s), group g, place e. -/
theorem flatX_apply (a : (⟨4, ![32, 512, 12, 24]⟩ : Shape).Idx → EReal)
    (h : (⟨4, ![32, 512, 12, 24]⟩ : Shape).ShapeCasts ⟨2, ![16384, 288]⟩) (b : Fin 32) (s : Fin 512) (g : Fin 12) (e : Fin 24) :
    shapeCast ⟨2, ![16384, 288]⟩ a h (ix2 (rowOf b s) (flat 288 (G := 12) (E := 24) rfl g e)) = a (ix4 b s g e) :=
  shapeCast_apply a h _ (ix4 b s g e) (by
    rw [Shape.rowMajor_val_two, Shape.rowMajor_val_four]
    show ((b.val * 512 + s.val) * 12 + g.val) * 24 + e.val = (rowOf b s).val * 288 + (flat 288 (G := 12) (E := 24) rfl g e).val
    simp only [flat_val, rowOf_val]; omega)

/-- The second argument's flat view at row (b, s), group g, place e. -/
theorem flatY_apply (a : (⟨4, ![32, 512, 12, 16]⟩ : Shape).Idx → EReal)
    (h : (⟨4, ![32, 512, 12, 16]⟩ : Shape).ShapeCasts ⟨2, ![16384, 192]⟩) (b : Fin 32) (s : Fin 512) (g : Fin 12) (e : Fin 16) :
    shapeCast ⟨2, ![16384, 192]⟩ a h (ix2 (rowOf b s) (flat 192 (G := 12) (E := 16) rfl g e)) = a (ix4 b s g e) :=
  shapeCast_apply a h _ (ix4 b s g e) (by
    rw [Shape.rowMajor_val_two, Shape.rowMajor_val_four]
    show ((b.val * 512 + s.val) * 12 + g.val) * 16 + e.val = (rowOf b s).val * 192 + (flat 192 (G := 12) (E := 16) rfl g e).val
    simp only [flat_val, rowOf_val]; omega)

/-- The third argument's flat view at row (b, s), group q of 192, place e: group q is (q / 16, q % 16). -/
theorem flatZ_apply (a : (⟨5, ![32, 512, 12, 16, 24]⟩ : Shape).Idx → EReal)
    (h : (⟨5, ![32, 512, 12, 16, 24]⟩ : Shape).ShapeCasts ⟨2, ![16384, 4608]⟩) (b : Fin 32) (s : Fin 512) (q : Fin 192) (e : Fin 24) :
    shapeCast ⟨2, ![16384, 4608]⟩ a h (ix2 (rowOf b s) (flat 4608 (G := 192) (E := 24) rfl q e))
      = a (ix5 b s (grp 16 (G := 12) rfl q) (pos 16 (by decide) q) e) :=
  shapeCast_apply a h _ (ix5 b s (grp 16 (G := 12) rfl q) (pos 16 (by decide) q) e) (by
    rw [Shape.rowMajor_val_two, Shape.rowMajor_val_five]
    show (((b.val * 512 + s.val) * 12 + (grp 16 (G := 12) rfl q).val) * 16 + (pos 16 (by decide) q).val) * 24 + e.val
      = (rowOf b s).val * 4608 + (flat 4608 (G := 192) (E := 24) rfl q e).val
    simp only [flat_val, rowOf_val, grp_val, pos_val]; omega)

/-- The first branch: the chain on the flat views, viewed back in the argument's shape, is the chain on the argument. -/
theorem reshapeX (a : (⟨4, ![32, 512, 12, 24]⟩ : Shape).Idx → EReal) (wa wb : (⟨1, ![24]⟩ : Shape).Idx → EReal)
    (h0 : (⟨4, ![32, 512, 12, 24]⟩ : Shape).ShapeCasts ⟨2, ![16384, 288]⟩) (h1 : (⟨1, ![24]⟩ : Shape).ShapeCasts ⟨2, ![1, 24]⟩)
    (h2 : (⟨2, ![16384, 288]⟩ : Shape).ShapeCasts ⟨4, ![32, 512, 12, 24]⟩) :
    shapeCast ⟨4, ![32, 512, 12, 24]⟩
      (FX 16384 (shapeCast ⟨2, ![16384, 288]⟩ a h0) (shapeCast ⟨2, ![1, 24]⟩ wa h1) (shapeCast ⟨2, ![1, 24]⟩ wb h1)) h2
      = GX a wa wb := by
  funext i
  obtain ⟨b, s, g, e, rfl⟩ : ∃ (b : Fin 32) (s : Fin 512) (g : Fin 12) (e : Fin 24), i = ix4 b s g e :=
    ⟨i 0, i 1, i 2, i 3, eq_ix4 i⟩
  refine (shapeCast_apply _ h2 (ix4 b s g e) (ix2 (rowOf b s) (flat 288 (G := 12) (E := 24) rfl g e)) (by
    rw [Shape.rowMajor_val_two, Shape.rowMajor_val_four]
    show (rowOf b s).val * 288 + (flat 288 (G := 12) (E := 24) rfl g e).val = ((b.val * 512 + s.val) * 12 + g.val) * 24 + e.val
    simp only [flat_val, rowOf_val]; omega)).trans ?_
  rw [FX_apply, GX_apply, grp_flat, pos_flat]
  have hr : (fun g e => shapeCast ⟨2, ![16384, 288]⟩ a h0 (ix2 (rowOf b s) (flat 288 (G := 12) (E := 24) rfl g e)))
      = fun g e => a (ix4 b s g e) := funext fun g' => funext fun e' => flatX_apply a h0 b s g' e'
  have hwa : (fun e => shapeCast ⟨2, ![1, 24]⟩ wa h1 (ix2 0 e)) = fun e => wa (ix1 e) := funext fun e' => row24_apply wa h1 e'
  have hwb : (fun e => shapeCast ⟨2, ![1, 24]⟩ wb h1 (ix2 0 e)) = fun e => wb (ix1 e) := funext fun e' => row24_apply wb h1 e'
  rw [hr, hwa, hwb]

/-- The second branch likewise, the [12, 16] weights passed as [1, 192] rows. -/
theorem reshapeY (a : (⟨4, ![32, 512, 12, 16]⟩ : Shape).Idx → EReal) (wa wb : (⟨2, ![12, 16]⟩ : Shape).Idx → EReal)
    (h0 : (⟨4, ![32, 512, 12, 16]⟩ : Shape).ShapeCasts ⟨2, ![16384, 192]⟩) (h1 : (⟨2, ![12, 16]⟩ : Shape).ShapeCasts ⟨2, ![1, 192]⟩)
    (h2 : (⟨2, ![16384, 192]⟩ : Shape).ShapeCasts ⟨4, ![32, 512, 12, 16]⟩) :
    shapeCast ⟨4, ![32, 512, 12, 16]⟩
      (FY 16384 (shapeCast ⟨2, ![16384, 192]⟩ a h0) (shapeCast ⟨2, ![1, 192]⟩ wa h1) (shapeCast ⟨2, ![1, 192]⟩ wb h1)) h2
      = GY a wa wb := by
  funext i
  obtain ⟨b, s, g, e, rfl⟩ : ∃ (b : Fin 32) (s : Fin 512) (g : Fin 12) (e : Fin 16), i = ix4 b s g e :=
    ⟨i 0, i 1, i 2, i 3, eq_ix4 i⟩
  refine (shapeCast_apply _ h2 (ix4 b s g e) (ix2 (rowOf b s) (flat 192 (G := 12) (E := 16) rfl g e)) (by
    rw [Shape.rowMajor_val_two, Shape.rowMajor_val_four]
    show (rowOf b s).val * 192 + (flat 192 (G := 12) (E := 16) rfl g e).val = ((b.val * 512 + s.val) * 12 + g.val) * 16 + e.val
    simp only [flat_val, rowOf_val]; omega)).trans ?_
  rw [FY_apply, GY_apply, grp_flat, pos_flat]
  have hr : (fun g e => shapeCast ⟨2, ![16384, 192]⟩ a h0 (ix2 (rowOf b s) (flat 192 (G := 12) (E := 16) rfl g e)))
      = fun g e => a (ix4 b s g e) := funext fun g' => funext fun e' => flatY_apply a h0 b s g' e'
  have hwa : (fun g e => shapeCast ⟨2, ![1, 192]⟩ wa h1 (ix2 0 (flat 192 (G := 12) (E := 16) rfl g e))) = fun g e => wa (ix2 g e) :=
    funext fun g' => funext fun e' => row192_apply wa h1 g' e'
  have hwb : (fun g e => shapeCast ⟨2, ![1, 192]⟩ wb h1 (ix2 0 (flat 192 (G := 12) (E := 16) rfl g e))) = fun g e => wb (ix2 g e) :=
    funext fun g' => funext fun e' => row192_apply wb h1 g' e'
  rw [hr, hwa, hwb]

/-- The third branch likewise: a row is 192 groups of 24, group q the argument's (q / 16, q % 16). -/
theorem reshapeZ (a : (⟨5, ![32, 512, 12, 16, 24]⟩ : Shape).Idx → EReal) (wa wb : (⟨1, ![24]⟩ : Shape).Idx → EReal)
    (h0 : (⟨5, ![32, 512, 12, 16, 24]⟩ : Shape).ShapeCasts ⟨2, ![16384, 4608]⟩) (h1 : (⟨1, ![24]⟩ : Shape).ShapeCasts ⟨2, ![1, 24]⟩)
    (h2 : (⟨2, ![16384, 4608]⟩ : Shape).ShapeCasts ⟨5, ![32, 512, 12, 16, 24]⟩) :
    shapeCast ⟨5, ![32, 512, 12, 16, 24]⟩
      (FZ 16384 (shapeCast ⟨2, ![16384, 4608]⟩ a h0) (shapeCast ⟨2, ![1, 24]⟩ wa h1) (shapeCast ⟨2, ![1, 24]⟩ wb h1)) h2
      = GZ a wa wb := by
  funext i
  obtain ⟨b, s, g, k, e, rfl⟩ : ∃ (b : Fin 32) (s : Fin 512) (g : Fin 12) (k : Fin 16) (e : Fin 24), i = ix5 b s g k e :=
    ⟨i 0, i 1, i 2, i 3, i 4, eq_ix5 i⟩
  refine (shapeCast_apply _ h2 (ix5 b s g k e)
    (ix2 (rowOf b s) (flat 4608 (G := 192) (E := 24) rfl (flat 192 (G := 12) (E := 16) rfl g k) e)) (by
    rw [Shape.rowMajor_val_two, Shape.rowMajor_val_five]
    show (rowOf b s).val * 4608 + (flat 4608 (G := 192) (E := 24) rfl (flat 192 (G := 12) (E := 16) rfl g k) e).val
      = (((b.val * 512 + s.val) * 12 + g.val) * 16 + k.val) * 24 + e.val
    simp only [flat_val, rowOf_val]; omega)).trans ?_
  rw [FZ_apply, GZ_apply, grp_flat, pos_flat]
  have hr : (fun q e => shapeCast ⟨2, ![16384, 4608]⟩ a h0 (ix2 (rowOf b s) (flat 4608 (G := 192) (E := 24) rfl q e)))
      = fun q e => a (ix5 b s (grp 16 (G := 12) rfl q) (pos 16 (by decide) q) e) :=
    funext fun q' => funext fun e' => flatZ_apply a h0 b s q' e'
  have hwa : (fun e => shapeCast ⟨2, ![1, 24]⟩ wa h1 (ix2 0 e)) = fun e => wa (ix1 e) := funext fun e' => row24_apply wa h1 e'
  have hwb : (fun e => shapeCast ⟨2, ![1, 24]⟩ wb h1 (ix2 0 e)) = fun e => wb (ix1 e) := funext fun e' => row24_apply wb h1 e'
  rw [hr, hwa, hwb]

end Cert.Norm

end
-- ==== Proof.KernelResult.lean ====
/-
  The kernel program's run, read: each result buffer ends at its branch's chain on the rows of the arguments.

  The run ends with each result at the last fold's value (Proof/KernelRun.lean); that value is the chain on the flat views
  of the arguments viewed back in the argument's shape (Proof/KernelWalk.lean), which is the chain on the arguments
  themselves (Proof/Reshape.lean).
-/
import proofs.«112269_j45191645889359_2_alg».proof.Proof.KernelRun
import proofs.«112269_j45191645889359_2_alg».proof.Proof.KernelWalk
import proofs.«112269_j45191645889359_2_alg».proof.Proof.Reshape

noncomputable section

namespace Cert.KernelIdeal.Result

open Cert.KernelIdeal Cert.KernelIdeal.Gen Cert.Norm
open Idealize.ShloMosaic Idealize.ShloMosaic.TcCoe Idealize.SL.Sem

variable (m : (ℓ : Loc nD τ sig) → Buf (Elt Ideal) ℓ) (ρ : Dev nD → PrngReg)

/-- Every weakly fair execution of the kernel program terminates with the three results at `GX`, `GY`, `GZ` of the
    arguments and the arguments unchanged. -/
theorem run : θ_run defs (onTc (τ := τ) (main (F := Ideal))) ⟨m, fun _ => 0, ρ⟩ (fun r => ∀ c : Dev nD,
      r.2.mem ((c.tc : Thread nD τ).loc main_v12)
        = GX (m ((c.tc : Thread nD τ).loc main_arg0)) (m ((c.tc : Thread nD τ).loc main_arg3)) (m ((c.tc : Thread nD τ).loc main_arg6))
      ∧ r.2.mem ((c.tc : Thread nD τ).loc main_v13)
        = GY (m ((c.tc : Thread nD τ).loc main_arg1)) (m ((c.tc : Thread nD τ).loc main_arg4)) (m ((c.tc : Thread nD τ).loc main_arg7))
      ∧ r.2.mem ((c.tc : Thread nD τ).loc main_v14)
        = GZ (m ((c.tc : Thread nD τ).loc main_arg2)) (m ((c.tc : Thread nD τ).loc main_arg5)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨(h c).1.trans ((Walk.result_x m ρ c).trans (reshapeX _ _ _ _ _ _)),
       (h c).2.1.trans ((Walk.result_y m ρ c).trans (reshapeY _ _ _ _ _ _)),
       (h c).2.2.1.trans ((Walk.result_z m ρ c).trans (reshapeZ _ _ _ _ _ _)),
       (h c).2.2.2⟩)
    (Run.run_folded (F := Ideal) m ρ)

end Cert.KernelIdeal.Result

end
-- ==== Proof.LibHostSumTail.lean ====
/-
  A host sum over the trailing axes of an array, read at an index.

  At the ideal values the host's float sum over a list of axes is the initial value plus the sum of the operand over
  the set of indices that drop to the result index. When the reduced axes are the LAST two of a rank-4 array, or the last
  three of a rank-5 array, that set is the image of the product of the reduced coordinate ranges under "put the kept
  coordinates in front", so the sum is the iterated sum over the reduced coordinates. The only law used is re-indexing
  a finite sum along a bijection.
-/
import Idealize.ShloMosaic.PureOps.Ideal.Laws
import Idealize.ShloMosaic.Lib.ValueIdx

noncomputable section

namespace Idealize.ShloMosaic.HostSumTail

open Idealize.ShloMosaic Idealize.ShloMosaic.ValueIdx

/-- A rank-4 index drops (over its last two axes) to `(a, b)` exactly when its first two coordinates are `a`, `b`. -/
theorem drop_tail2_eq_iff {A B C D : ℕ}
    (h : (⟨4, ![A, B, C, D]⟩ : Shape).ReducesTo [2, 3] ⟨2, ![A, B]⟩)
    (i : (⟨4, ![A, B, C, D]⟩ : Shape).Idx) (a : Fin A) (b : Fin B) :
    h.drop i = ix2 a b ↔ ((i 0 : Fin A) = a ∧ (i 1 : Fin B) = b) := by
  have h0 : (h.drop i 0 : ℕ) = i 0 := rfl
  have h1 : (h.drop i 1 : ℕ) = i 1 := rfl
  constructor
  · intro e
    refine ⟨Fin.ext ?_, Fin.ext ?_⟩
    · exact h0.symm.trans (congrArg Fin.val (congrFun e 0))
    · exact h1.symm.trans (congrArg Fin.val (congrFun e 1))
  · rintro ⟨ea, eb⟩
    funext k
    match k with
    | ⟨0, _⟩ => exact Fin.ext (h0.trans (congrArg Fin.val ea))
    | ⟨1, _⟩ => exact Fin.ext (h1.trans (congrArg Fin.val eb))

/-- The host's sum of a rank-4 array over its last two axes, at `(a, b)`: the initial value plus the double sum over
    the two reduced coordinates. -/
theorem hostReduceAdd_tail2 {A B C D : ℕ}
    (h : (⟨4, ![A, B, C, D]⟩ : Shape).ReducesTo [2, 3] ⟨2, ![A, B]⟩)
    (x : (⟨4, ![A, B, C, D]⟩ : Shape).Idx → EReal) (init : EReal) (a : Fin A) (b : Fin B) :
    Ideal.hostReduceAdd h x init (ix2 a b) = init + ∑ c : Fin C, ∑ d : Fin D, x (ix4 a b c d) := by
  unfold Ideal.hostReduceAdd
  refine congrArg (init + ·) ?_
  refine Eq.trans ?_ (Fintype.sum_prod_type' (fun (c : Fin C) (d : Fin D) => x (ix4 a b c d)))
  refine Finset.sum_nbij' (fun i => ((i 2 : Fin C), (i 3 : Fin D))) (fun p => ix4 a b p.1 p.2)
    (fun _ _ => Finset.mem_univ _) ?_ ?_ ?_ ?_
  · intro p _
    exact Finset.mem_filter.2 ⟨Finset.mem_univ _, (drop_tail2_eq_iff h _ a b).2 ⟨rfl, rfl⟩⟩
  · intro i hi
    obtain ⟨ea, eb⟩ := (drop_tail2_eq_iff h i a b).1 (Finset.mem_filter.1 hi).2
    funext k
    match k with
    | ⟨0, _⟩ => exact ea.symm
    | ⟨1, _⟩ => exact eb.symm
    | ⟨2, _⟩ => rfl
    | ⟨3, _⟩ => rfl
  · intro p _
    rfl
  · intro i hi
    obtain ⟨ea, eb⟩ := (drop_tail2_eq_iff h i a b).1 (Finset.mem_filter.1 hi).2
    refine congrArg x ?_
    funext k
    match k with
    | ⟨0, _⟩ => exact ea
    | ⟨1, _⟩ => exact eb
    | ⟨2, _⟩ => rfl
    | ⟨3, _⟩ => rfl

/-- A rank-5 index drops (over its last three axes) to `(a, b)` exactly when its first two coordinates are `a`, `b`. -/
theorem drop_tail3_eq_iff {A B C D E : ℕ}
    (h : (⟨5, ![A, B, C, D, E]⟩ : Shape).ReducesTo [2, 3, 4] ⟨2, ![A, B]⟩)
    (i : (⟨5, ![A, B, C, D, E]⟩ : Shape).Idx) (a : Fin A) (b : Fin B) :
    h.drop i = ix2 a b ↔ ((i 0 : Fin A) = a ∧ (i 1 : Fin B) = b) := by
  have h0 : (h.drop i 0 : ℕ) = i 0 := rfl
  have h1 : (h.drop i 1 : ℕ) = i 1 := rfl
  constructor
  · intro e
    refine ⟨Fin.ext ?_, Fin.ext ?_⟩
    · exact h0.symm.trans (congrArg Fin.val (congrFun e 0))
    · exact h1.symm.trans (congrArg Fin.val (congrFun e 1))
  · rintro ⟨ea, eb⟩
    funext k
    match k with
    | ⟨0, _⟩ => exact Fin.ext (h0.trans (congrArg Fin.val ea))
    | ⟨1, _⟩ => exact Fin.ext (h1.trans (congrArg Fin.val eb))

/-- The host's sum of a rank-5 array over its last three axes, at `(a, b)`: the initial value plus the triple sum over
    the three reduced coordinates. -/
theorem hostReduceAdd_tail3 {A B C D E : ℕ}
    (h : (⟨5, ![A, B, C, D, E]⟩ : Shape).ReducesTo [2, 3, 4] ⟨2, ![A, B]⟩)
    (x : (⟨5, ![A, B, C, D, E]⟩ : Shape).Idx → EReal) (init : EReal) (a : Fin A) (b : Fin B) :
    Ideal.hostReduceAdd h x init (ix2 a b)
      = init + ∑ c : Fin C, ∑ d : Fin D, ∑ e : Fin E, x (ix5 a b c d e) := by
  unfold Ideal.hostReduceAdd
  refine congrArg (init + ·) ?_
  have e2 : ∀ c : Fin C, ∑ d : Fin D, ∑ e : Fin E, x (ix5 a b c d e)
      = ∑ q : Fin D × Fin E, x (ix5 a b c q.1 q.2) :=
    fun c => (Fintype.sum_prod_type' (fun (d : Fin D) (e : Fin E) => x (ix5 a b c d e))).symm
  refine Eq.trans ?_ ((Fintype.sum_prod_type' (fun (c : Fin C) (q : Fin D × Fin E) => x (ix5 a b c q.1 q.2))).trans
    (Finset.sum_congr rfl fun c _ => (e2 c).symm))
  refine Finset.sum_nbij' (fun i => ((i 2 : Fin C), ((i 3 : Fin D), (i 4 : Fin E))))
    (fun p => ix5 a b p.1 p.2.1 p.2.2) (fun _ _ => Finset.mem_univ _) ?_ ?_ ?_ ?_
  · intro p _
    exact Finset.mem_filter.2 ⟨Finset.mem_univ _, (drop_tail3_eq_iff h _ a b).2 ⟨rfl, rfl⟩⟩
  · intro i hi
    obtain ⟨ea, eb⟩ := (drop_tail3_eq_iff h i a b).1 (Finset.mem_filter.1 hi).2
    funext k
    match k with
    | ⟨0, _⟩ => exact ea.symm
    | ⟨1, _⟩ => exact eb.symm
    | ⟨2, _⟩ => rfl
    | ⟨3, _⟩ => rfl
    | ⟨4, _⟩ => rfl
  · intro p _
    rfl
  · intro i hi
    obtain ⟨ea, eb⟩ := (drop_tail3_eq_iff h i a b).1 (Finset.mem_filter.1 hi).2
    refine congrArg x ?_
    funext k
    match k with
    | ⟨0, _⟩ => exact ea
    | ⟨1, _⟩ => exact eb
    | ⟨2, _⟩ => rfl
    | ⟨3, _⟩ => rfl
    | ⟨4, _⟩ => rfl

end Idealize.ShloMosaic.HostSumTail

end
-- ==== Proof.RefX.lean ====
/-
  The reference's first result at the ideal values, read at an index.
-/
import proofs.«112269_j45191645889359_2_alg».proof.Proof.Gen.ReferenceIdeal.Read
import proofs.«112269_j45191645889359_2_alg».proof.Proof.SpecArrays
import proofs.«112269_j45191645889359_2_alg».proof.Proof.LibHostSumTail
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Read Cert.Norm

/-! ## The first normalisation: each group by its own mean square, weighted -/

theorem x_idx_grp (b : Fin 32) (s : Fin 512) (g : Fin 12) (e k : Fin 24) :
    idx_main_v1 (idx_main_v2 (idx_main_v8 (ix4 b s g e))) k = ix4 b s g k :=
  funext fun a => Fin.ext (by match a with | ⟨0, _⟩ => rfl | ⟨1, _⟩ => rfl | ⟨2, _⟩ => rfl | ⟨3, _⟩ => rfl)

theorem x_idx_wa (b : Fin 32) (s : Fin 512) (g : Fin 12) (e : Fin 24) :
    idx_main_v10 (idx_main_v11 (ix4 b s g e)) = ix1 e :=
  funext fun a => Fin.ext (by match a with | ⟨0, _⟩ => rfl)

/-- After the first normalisation the entry at (b, s, g, e) is the weighted group normalisation of row (b, s). -/
theorem x_stage1 (a0 : (⟨S32x512x12x24, .f32⟩ : BufTy).Contents (Elt Ideal)) (a3 : (⟨S24, .f32⟩ : BufTy).Contents (Elt Ideal))
    (b : Fin 32) (s : Fin 512) (g : Fin 12) (e : Fin 24) :
    val_main_v12 (F := Ideal) a0 a3 (ix4 b s g e)
      = inner c24 epsD (fun g e => a0 (ix4 b s g e)) (fun e => a3 (ix1 e)) g e := by
  simp only [val_main_v12_apply, val_main_v9_apply, val_main_v8_apply, val_main_v7_apply, val_main_v6_apply,
    val_main_v4_apply, val_main_v2_apply, val_main_v1_apply, val_main_v0_apply, val_main_v3_apply, val_main_cst_0_apply,
    val_main_v5_apply, val_main_cst_1_apply, val_main_cst_apply, val_main_v11_apply, val_main_v10_apply,
    x_idx_grp, x_idx_wa, Ideal.ofBits_def, Ideal.ofBits_zero_f32, zero_add]
  rfl

/-! ## The second normalisation: the whole row by its mean square -/

/-- The sum of the squares over the last two axes at (b, s) is the double sum over row (b, s). -/
theorem val_main_v14_at (a0 : (⟨S32x512x12x24, .f32⟩ : BufTy).Contents (Elt Ideal)) (a3 : (⟨S24, .f32⟩ : BufTy).Contents (Elt Ideal))
    (b : Fin 32) (s : Fin 512) :
    val_main_v14 (F := Ideal) a0 a3 (ix2 b s)
      = ∑ g : Fin 12, ∑ e : Fin 24, val_main_v13 (F := Ideal) a0 a3 (ix4 b s g e) := by
  unfold val_main_v14
  generalize val_main_v13 (F := Ideal) a0 a3 = y0
  simp only [Host.reduceAdd, Ideal.hostReduceAdd_def]
  refine (HostSumTail.hostReduceAdd_tail2 Gen.reducesTo_S32x512x12x24_S32x512_d2_3 y0 _ b s).trans ?_
  rw [val_main_cst_2_apply, Ideal.ofBits_def, Ideal.ofBits_zero_f32, zero_add]

theorem x_idx_row (b : Fin 32) (s : Fin 512) (g : Fin 12) (e : Fin 24) :
    idx_main_v15 (idx_main_v21 (ix4 b s g e)) = ix2 b s :=
  funext fun a => Fin.ext (by match a with | ⟨0, _⟩ => rfl | ⟨1, _⟩ => rfl)

/-- After the second normalisation the entry is the row normalisation of the first stage's row. -/
theorem x_stage2 (a0 : (⟨S32x512x12x24, .f32⟩ : BufTy).Contents (Elt Ideal)) (a3 : (⟨S24, .f32⟩ : BufTy).Contents (Elt Ideal))
    (b : Fin 32) (s : Fin 512) (g : Fin 12) (e : Fin 24) :
    val_main_v22 (F := Ideal) a0 a3 (ix4 b s g e)
      = outerNoW c288 epsD (inner c24 epsD (fun g e => a0 (ix4 b s g e)) (fun e => a3 (ix1 e))) g e := by
  simp only [val_main_v22_apply, val_main_v21_apply, val_main_v20_apply, val_main_v19_apply, val_main_v17_apply,
    val_main_v15_apply, val_main_v16_apply, val_main_cst_3_apply, val_main_v18_apply, val_main_cst_4_apply,
    x_idx_row, val_main_v14_at, val_main_v13_apply, x_stage1, Ideal.ofBits_def]
  rfl

/-! ## The third normalisation: each group again, with the second weight -/

theorem x_idx_grp' (b : Fin 32) (s : Fin 512) (g : Fin 12) (e k : Fin 24) :
    idx_main_v24 (idx_main_v25 (idx_main_v31 (ix4 b s g e))) k = ix4 b s g k :=
  funext fun a => Fin.ext (by match a with | ⟨0, _⟩ => rfl | ⟨1, _⟩ => rfl | ⟨2, _⟩ => rfl | ⟨3, _⟩ => rfl)

theorem x_idx_wb (b : Fin 32) (s : Fin 512) (g : Fin 12) (e : Fin 24) :
    idx_main_v33 (idx_main_v34 (ix4 b s g e)) = ix1 e :=
  funext fun a => Fin.ext (by match a with | ⟨0, _⟩ => rfl)

/-- The reference's first result is the first branch's chain on each row of its argument. -/
theorem refX (a0 : (⟨S32x512x12x24, .f32⟩ : BufTy).Contents (Elt Ideal)) (a3 a6 : (⟨S24, .f32⟩ : BufTy).Contents (Elt Ideal)) :
    val_main_v35 (F := Ideal) a0 a3 a6 = GX a0 a3 a6 := by
  funext i
  obtain ⟨b, s, g, e, rfl⟩ : ∃ (b : Fin 32) (s : Fin 512) (g : Fin 12) (e : Fin 24), i = ix4 b s g e :=
    ⟨i 0, i 1, i 2, i 3, eq_ix4 i⟩
  rw [GX_apply]
  simp only [val_main_v35_apply, val_main_v32_apply, val_main_v31_apply, val_main_v30_apply, val_main_v29_apply,
    val_main_v27_apply, val_main_v25_apply, val_main_v24_apply, val_main_v23_apply, val_main_v26_apply,
    val_main_cst_6_apply, val_main_v28_apply, val_main_cst_7_apply, val_main_cst_5_apply, val_main_v34_apply,
    val_main_v33_apply, x_idx_grp', x_idx_wb, x_stage2, Ideal.ofBits_def, Ideal.ofBits_zero_f32, zero_add]
  rfl

end Cert.ReferenceIdeal.RefValue

end
-- ==== Proof.RefY.lean ====
/-
  The reference's second result at the ideal values, read at an index.
-/
import proofs.«112269_j45191645889359_2_alg».proof.Proof.Gen.ReferenceIdeal.Read
import proofs.«112269_j45191645889359_2_alg».proof.Proof.SpecArrays
import proofs.«112269_j45191645889359_2_alg».proof.Proof.LibHostSumTail
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Read Cert.Norm

/-! ## The first normalisation: each group by its own mean square -/

theorem y_idx_grp (b : Fin 32) (s : Fin 512) (g : Fin 12) (e k : Fin 16) :
    idx_main_v37 (idx_main_v38 (idx_main_v44 (ix4 b s g e))) k = ix4 b s g k :=
  funext fun a => Fin.ext (by match a with | ⟨0, _⟩ => rfl | ⟨1, _⟩ => rfl | ⟨2, _⟩ => rfl | ⟨3, _⟩ => rfl)

/-- After the first normalisation the entry at (b, s, g, e) is the group normalisation of row (b, s). -/
theorem y_stage1 (a1 : (⟨S32x512x12x16, .f32⟩ : BufTy).Contents (Elt Ideal))
    (b : Fin 32) (s : Fin 512) (g : Fin 12) (e : Fin 16) :
    val_main_v45 (F := Ideal) a1 (ix4 b s g e) = innerNoW c16 eps3 (fun g e => a1 (ix4 b s g e)) g e := by
  simp only [val_main_v45_apply, val_main_v44_apply, val_main_v43_apply, val_main_v42_apply, val_main_v40_apply,
    val_main_v38_apply, val_main_v37_apply, val_main_v36_apply, val_main_v39_apply, val_main_cst_9_apply,
    val_main_v41_apply, val_main_cst_10_apply, val_main_cst_8_apply, y_idx_grp, Ideal.ofBits_def,
    Ideal.ofBits_zero_f32, zero_add]
  rfl

/-! ## The second normalisation: the whole row by its mean square, with the first full weight -/

/-- The sum of the squares over the last two axes at (b, s) is the double sum over row (b, s). -/
theorem val_main_v47_at (a1 : (⟨S32x512x12x16, .f32⟩ : BufTy).Contents (Elt Ideal)) (b : Fin 32) (s : Fin 512) :
    val_main_v47 (F := Ideal) a1 (ix2 b s)
      = ∑ g : Fin 12, ∑ e : Fin 16, val_main_v46 (F := Ideal) a1 (ix4 b s g e) := by
  unfold val_main_v47
  generalize val_main_v46 (F := Ideal) a1 = y0
  simp only [Host.reduceAdd, Ideal.hostReduceAdd_def]
  refine (HostSumTail.hostReduceAdd_tail2 Gen.reducesTo_S32x512x12x16_S32x512_d2_3 y0 _ b s).trans ?_
  rw [val_main_cst_11_apply, Ideal.ofBits_def, Ideal.ofBits_zero_f32, zero_add]

theorem y_idx_row (b : Fin 32) (s : Fin 512) (g : Fin 12) (e : Fin 16) :
    idx_main_v48 (idx_main_v54 (ix4 b s g e)) = ix2 b s :=
  funext fun a => Fin.ext (by match a with | ⟨0, _⟩ => rfl | ⟨1, _⟩ => rfl)

theorem y_idx_wa (b : Fin 32) (s : Fin 512) (g : Fin 12) (e : Fin 16) :
    idx_main_v56 (idx_main_v57 (ix4 b s g e)) = ix2 g e :=
  funext fun a => Fin.ext (by match a with | ⟨0, _⟩ => rfl | ⟨1, _⟩ => rfl)

/-- After the second normalisation the entry is the weighted row normalisation of the first stage's row. -/
theorem y_stage2 (a1 : (⟨S32x512x12x16, .f32⟩ : BufTy).Contents (Elt Ideal)) (a4 : (⟨S12x16, .f32⟩ : BufTy).Contents (Elt Ideal))
    (b : Fin 32) (s : Fin 512) (g : Fin 12) (e : Fin 16) :
    val_main_v58 (F := Ideal) a1 a4 (ix4 b s g e)
      = outerW c192 epsD (innerNoW c16 eps3 (fun g e => a1 (ix4 b s g e))) (fun g e => a4 (ix2 g e)) g e := by
  simp only [val_main_v58_apply, val_main_v55_apply, val_main_v54_apply, val_main_v53_apply, val_main_v52_apply,
    val_main_v50_apply, val_main_v48_apply, val_main_v49_apply, val_main_cst_12_apply, val_main_v51_apply,
    val_main_cst_13_apply, val_main_v57_apply, val_main_v56_apply, y_idx_row, y_idx_wa, val_main_v47_at,
    val_main_v46_apply, y_stage1, Ideal.ofBits_def]
  rfl

/-! ## The third normalisation: the whole row again, with the second full weight -/

/-- The sum of the squares over the last two axes at (b, s) is the double sum over row (b, s). -/
theorem val_main_v60_at (a1 : (⟨S32x512x12x16, .f32⟩ : BufTy).Contents (Elt Ideal)) (a4 : (⟨S12x16, .f32⟩ : BufTy).Contents (Elt Ideal)) (b : Fin 32) (s : Fin 512) :
    val_main_v60 (F := Ideal) a1 a4 (ix2 b s)
      = ∑ g : Fin 12, ∑ e : Fin 16, val_main_v59 (F := Ideal) a1 a4 (ix4 b s g e) := by
  unfold val_main_v60
  generalize val_main_v59 (F := Ideal) a1 a4 = y0
  simp only [Host.reduceAdd, Ideal.hostReduceAdd_def]
  refine (HostSumTail.hostReduceAdd_tail2 Gen.reducesTo_S32x512x12x16_S32x512_d2_3 y0 _ b s).trans ?_
  rw [val_main_cst_14_apply, Ideal.ofBits_def, Ideal.ofBits_zero_f32, zero_add]

theorem y_idx_row' (b : Fin 32) (s : Fin 512) (g : Fin 12) (e : Fin 16) :
    idx_main_v61 (idx_main_v67 (ix4 b s g e)) = ix2 b s :=
  funext fun a => Fin.ext (by match a with | ⟨0, _⟩ => rfl | ⟨1, _⟩ => rfl)

theorem y_idx_wb (b : Fin 32) (s : Fin 512) (g : Fin 12) (e : Fin 16) :
    idx_main_v69 (idx_main_v70 (ix4 b s g e)) = ix2 g e :=
  funext fun a => Fin.ext (by match a with | ⟨0, _⟩ => rfl | ⟨1, _⟩ => rfl)

/-- The reference's second result is the second branch's chain on each row of its argument. -/
theorem refY (a1 : (⟨S32x512x12x16, .f32⟩ : BufTy).Contents (Elt Ideal)) (a4 a7 : (⟨S12x16, .f32⟩ : BufTy).Contents (Elt Ideal)) :
    val_main_v71 (F := Ideal) a1 a4 a7 = GY a1 a4 a7 := by
  funext i
  obtain ⟨b, s, g, e, rfl⟩ : ∃ (b : Fin 32) (s : Fin 512) (g : Fin 12) (e : Fin 16), i = ix4 b s g e :=
    ⟨i 0, i 1, i 2, i 3, eq_ix4 i⟩
  rw [GY_apply]
  simp only [val_main_v71_apply, val_main_v68_apply, val_main_v67_apply, val_main_v66_apply, val_main_v65_apply,
    val_main_v63_apply, val_main_v61_apply, val_main_v62_apply, val_main_cst_15_apply, val_main_v64_apply,
    val_main_cst_16_apply, val_main_v70_apply, val_main_v69_apply, y_idx_row', y_idx_wb, val_main_v60_at,
    val_main_v59_apply, y_stage2, Ideal.ofBits_def]
  rfl

end Cert.ReferenceIdeal.RefValue

end
-- ==== Proof.RefZ.lean ====
/-
  The reference's third result at the ideal values, read at an index.
-/
import proofs.«112269_j45191645889359_2_alg».proof.Proof.Gen.ReferenceIdeal.Read
import proofs.«112269_j45191645889359_2_alg».proof.Proof.SpecArrays
import proofs.«112269_j45191645889359_2_alg».proof.Proof.LibHostSumTail
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Read Cert.Norm

/-- Row (b, s) of the argument as 192 groups of 24: group `q` is the pair (q / 16, q % 16) of the two middle coordinates. -/
abbrev zr (a2 : (⟨S32x512x12x16x24, .f32⟩ : BufTy).Contents (Elt Ideal)) (b : Fin 32) (s : Fin 512) : Fin 192 → Fin 24 → EReal :=
  fun q e => a2 (ix5 b s (grp 16 (G := 12) rfl q) (pos 16 (by decide) q) e)

/-! ## The first normalisation: each group of 24 by its own mean square, weighted -/

theorem z_idx_grp (b : Fin 32) (s : Fin 512) (g : Fin 12) (h : Fin 16) (e k : Fin 24) :
    idx_main_v73 (idx_main_v74 (idx_main_v80 (ix5 b s g h e))) k = ix5 b s g h k :=
  funext fun a => Fin.ext (by match a with | ⟨0, _⟩ => rfl | ⟨1, _⟩ => rfl | ⟨2, _⟩ => rfl | ⟨3, _⟩ => rfl | ⟨4, _⟩ => rfl)

theorem z_idx_wa (b : Fin 32) (s : Fin 512) (g : Fin 12) (h : Fin 16) (e : Fin 24) :
    idx_main_v82 (idx_main_v83 (ix5 b s g h e)) = ix1 e :=
  funext fun a => Fin.ext (by match a with | ⟨0, _⟩ => rfl)

/-- After the first normalisation the entry at (b, s, g, h, e) is the weighted group normalisation of row (b, s), at
    group 16 g + h. -/
theorem z_stage1 (a2 : (⟨S32x512x12x16x24, .f32⟩ : BufTy).Contents (Elt Ideal)) (a5 : (⟨S24, .f32⟩ : BufTy).Contents (Elt Ideal))
    (b : Fin 32) (s : Fin 512) (g : Fin 12) (h : Fin 16) (e : Fin 24) :
    val_main_v84 (F := Ideal) a2 a5 (ix5 b s g h e)
      = inner c24 epsD (zr a2 b s) (fun e => a5 (ix1 e)) (flat 192 (G := 12) (E := 16) rfl g h) e := by
  simp only [val_main_v84_apply, val_main_v81_apply, val_main_v80_apply, val_main_v79_apply, val_main_v78_apply,
    val_main_v76_apply, val_main_v74_apply, val_main_v73_apply, val_main_v72_apply, val_main_v75_apply,
    val_main_cst_18_apply, val_main_v77_apply, val_main_cst_19_apply, val_main_cst_17_apply, val_main_v83_apply,
    val_main_v82_apply, z_idx_grp, z_idx_wa, Ideal.ofBits_def, Ideal.ofBits_zero_f32, zero_add]
  unfold Norm.inner Norm.rs Norm.groupSq
  simp only [zr, grp_flat, pos_flat]
  rfl

/-! ## The second normalisation: the whole row by its mean square -/

/-- The sum of the squares over the last three axes at (b, s) is the triple sum over row (b, s). -/
theorem val_main_v86_at (a2 : (⟨S32x512x12x16x24, .f32⟩ : BufTy).Contents (Elt Ideal)) (a5 : (⟨S24, .f32⟩ : BufTy).Contents (Elt Ideal)) (b : Fin 32) (s : Fin 512) :
    val_main_v86 (F := Ideal) a2 a5 (ix2 b s)
      = ∑ g : Fin 12, ∑ h : Fin 16, ∑ e : Fin 24, val_main_v85 (F := Ideal) a2 a5 (ix5 b s g h e) := by
  unfold val_main_v86
  generalize val_main_v85 (F := Ideal) a2 a5 = y0
  simp only [Host.reduceAdd, Ideal.hostReduceAdd_def]
  refine (HostSumTail.hostReduceAdd_tail3 Gen.reducesTo_S32x512x12x16x24_S32x512_d2_3_4 y0 _ b s).trans ?_
  rw [val_main_cst_20_apply, Ideal.ofBits_def, Ideal.ofBits_zero_f32, zero_add]

theorem z_idx_row (b : Fin 32) (s : Fin 512) (g : Fin 12) (h : Fin 16) (e : Fin 24) :
    idx_main_v87 (idx_main_v93 (ix5 b s g h e)) = ix2 b s :=
  funext fun a => Fin.ext (by match a with | ⟨0, _⟩ => rfl | ⟨1, _⟩ => rfl)

/-- After the second normalisation the entry is the row normalisation of the first stage's row: the sum over the 192
    groups is the double sum over the two middle coordinates. -/
theorem z_stage2 (a2 : (⟨S32x512x12x16x24, .f32⟩ : BufTy).Contents (Elt Ideal)) (a5 : (⟨S24, .f32⟩ : BufTy).Contents (Elt Ideal))
    (b : Fin 32) (s : Fin 512) (g : Fin 12) (h : Fin 16) (e : Fin 24) :
    val_main_v94 (F := Ideal) a2 a5 (ix5 b s g h e)
      = outerNoW c4608 eps2 (inner c24 epsD (zr a2 b s) (fun e => a5 (ix1 e)))
          (flat 192 (G := 12) (E := 16) rfl g h) e := by
  simp only [val_main_v94_apply, val_main_v93_apply, val_main_v92_apply, val_main_v91_apply, val_main_v89_apply,
    val_main_v87_apply, val_main_v88_apply, val_main_cst_21_apply, val_main_v90_apply, val_main_cst_22_apply,
    z_idx_row, val_main_v86_at, val_main_v85_apply, z_stage1, Ideal.ofBits_def]
  unfold Norm.outerNoW Norm.rowSq
  rw [sum_flat 192 (G := 12) (E := 16) rfl (by decide)]
  rfl

/-! ## The third normalisation: each group of 24 again, with the second weight -/

theorem z_idx_grp' (b : Fin 32) (s : Fin 512) (g : Fin 12) (h : Fin 16) (e k : Fin 24) :
    idx_main_v96 (idx_main_v97 (idx_main_v103 (ix5 b s g h e))) k = ix5 b s g h k :=
  funext fun a => Fin.ext (by match a with | ⟨0, _⟩ => rfl | ⟨1, _⟩ => rfl | ⟨2, _⟩ => rfl | ⟨3, _⟩ => rfl | ⟨4, _⟩ => rfl)

theorem z_idx_wb (b : Fin 32) (s : Fin 512) (g : Fin 12) (h : Fin 16) (e : Fin 24) :
    idx_main_v105 (idx_main_v106 (ix5 b s g h e)) = ix1 e :=
  funext fun a => Fin.ext (by match a with | ⟨0, _⟩ => rfl)

/-- The reference's third result is the third branch's chain on each row of its argument. -/
theorem refZ (a2 : (⟨S32x512x12x16x24, .f32⟩ : BufTy).Contents (Elt Ideal)) (a5 a8 : (⟨S24, .f32⟩ : BufTy).Contents (Elt Ideal)) :
    val_main_v107 (F := Ideal) a2 a5 a8 = GZ a2 a5 a8 := by
  funext i
  obtain ⟨b, s, g, h, e, rfl⟩ : ∃ (b : Fin 32) (s : Fin 512) (g : Fin 12) (h : Fin 16) (e : Fin 24), i = ix5 b s g h e :=
    ⟨i 0, i 1, i 2, i 3, i 4, eq_ix5 i⟩
  rw [GZ_apply]
  simp only [val_main_v107_apply, val_main_v104_apply, val_main_v103_apply, val_main_v102_apply, val_main_v101_apply,
    val_main_v99_apply, val_main_v97_apply, val_main_v96_apply, val_main_v95_apply, val_main_v98_apply,
    val_main_cst_24_apply, val_main_v100_apply, val_main_cst_25_apply, val_main_cst_23_apply, val_main_v106_apply,
    val_main_v105_apply, z_idx_grp', z_idx_wb, z_stage2, Ideal.ofBits_def, Ideal.ofBits_zero_f32, zero_add]
  rfl

end Cert.ReferenceIdeal.RefValue

end
-- ==== Proof.lean ====
/-
  The proof of `Cert.Claim`: a program of three kernels, each a chain of three RMS normalisations of one of the inputs
  x, y, z, against the reference that applies the same chains with jnp.

  At the ideal values both programs compute, for every row (b, s) of an input, the same chain on that row
  (Proof/Spec.lean, Proof/SpecArrays.lean): every literal is the same word on both sides, every operation the same exact
  operation, and the two differ only in how a row is laid out (flat, in blocks of rows, inside the kernels; in the
  argument's own shape in the reference) and in how a row's sum of squares is grouped, which a sum in a commutative
  monoid does not see. The kernel side: the run (Proof/KernelRun.lean), each kernel's body at an index
  (Proof/PayloadX.lean, PayloadY.lean, PayloadZ.lean), the blocks of rows put together (Proof/RegionX.lean, RegionY.lean,
  RegionZ.lean), the results traced back to the arguments (Proof/KernelWalk.lean, Proof/Reshape.lean,
  Proof/KernelResult.lean). The reference side: its run and each stage at an index are imported, and its three results are
  read as the chains (Proof/RefX.lean, RefY.lean, RefZ.lean). The three frames are the runs with the results dropped; the
  idealization rewrote nothing, so there is nothing to preserve.
-/
import proofs.«112269_j45191645889359_2_alg».proof.Defs
import proofs.«112269_j45191645889359_2_alg».proof.Proof.Gen.Kernel
import proofs.«112269_j45191645889359_2_alg».proof.Proof.Gen.Kernel.Frame
import proofs.«112269_j45191645889359_2_alg».proof.Proof.Gen.KernelIdeal
import proofs.«112269_j45191645889359_2_alg».proof.Proof.Gen.KernelIdeal.Frame
import proofs.«112269_j45191645889359_2_alg».proof.Proof.Gen.ReferenceIdeal
import proofs.«112269_j45191645889359_2_alg».proof.Proof.Gen.Pre_finite_inputs
import proofs.«112269_j45191645889359_2_alg».proof.Proof.Gen.ReferenceIdeal.Run
import proofs.«112269_j45191645889359_2_alg».proof.Proof.Gen.ReferenceIdeal.Read
import proofs.«112269_j45191645889359_2_alg».proof.Proof.KernelResult
import proofs.«112269_j45191645889359_2_alg».proof.Proof.RefX
import proofs.«112269_j45191645889359_2_alg».proof.Proof.RefY
import proofs.«112269_j45191645889359_2_alg».proof.Proof.RefZ
import Idealize.ShloMosaic.Adequacy
import Idealize.ShloMosaic.Init

noncomputable section

namespace Cert.Proof

open Idealize.ShloMosaic Idealize.SL.Sem Cert.Norm

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the arguments both programs end with each result at the same chain on the rows of the
    same arguments. -/
theorem algebraic : Cert.algebraic_KernelIdeal_ReferenceIdeal := by
  intro m ρ m' ρ' _ hagree
  refine ⟨_, _, _, Cert.KernelIdeal.Result.run m ρ, ?_⟩
  refine (θ_run Cert.ReferenceIdeal.defs _ _).mono (fun _ h c => ?_) (Cert.ReferenceIdeal.Value.run (F := Ideal) m' ρ')
  obtain ⟨r0, r1, r2, rest⟩ := h c
  obtain ⟨a0, a1, a2, a3, a4, a5, a6, a7, a8⟩ := hagree c
  refine ⟨r0.trans ?_, r1.trans ?_, r2.trans ?_, rest⟩
  · rw [Cert.ReferenceIdeal.Read.val_main_v35_eq, Cert.ReferenceIdeal.RefValue.refX, a0, a3, a6]
  · rw [Cert.ReferenceIdeal.Read.val_main_v71_eq, Cert.ReferenceIdeal.RefValue.refY, a1, a4, a7]
  · rw [Cert.ReferenceIdeal.Read.val_main_v107_eq, Cert.ReferenceIdeal.RefValue.refZ, a2, a5, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
